-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x1, .f32⟩
  | .hbm, ⟨80, _⟩ => ⟨S1700000x40, .f32⟩
  | .hbm, ⟨81, _⟩ => ⟨S1700000x40, .f32⟩
  | .hbm, ⟨82, _⟩ => ⟨S_, .f32⟩
  | .hbm, ⟨83, _⟩ => ⟨S100000x40, .f32⟩
  | .hbm, ⟨84, _⟩ => ⟨S1700000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The reference, stage by stage, as functions of each stage's IMMEDIATE inputs.

  The reference computes a two-layer graph convolution.  With row(e), col(e) the endpoints of edge e (the given
  edges followed by one self loop per node), deg(n) the number of edges e with row(e) = n, and
  nrm(e) = deg(row e)^(-1/2) · deg(col e)^(-1/2) (an endpoint of degree zero counting as zero):

    agg h      = the array whose row n is the sum over edges e with row(e) = n of  h[col(e), ·] · nrm(e)
    layer one  = max(agg (x · W1) + b1, 0)
    layer two  = logSoftmax (agg (layer one · W2) + b2)     along each row of 40 entries

  Here the reference's operations are grouped into functions of what each group actually consumes (the edge array;
  an array to aggregate and the three edge arrays; an array and a bias row; two matrices), so that the kernel's side
  can be compared group by group: once a group's inputs agree, its outputs agree, and nothing inside a gather or a
  scatter is ever opened.  `whole` is their composition, the reference's result as a function of its six arguments.
-/
import proofs.«128675_j73332271612558_1_alg».proof.Proof.Gen.ReferenceIdeal

noncomputable section

namespace Cert.Spec

open Cert.ReferenceIdeal Cert.ReferenceIdeal.Gen Idealize.ShloMosaic Idealize.ShloMosaic.TcCoe Idealize.SL.Sem

variable {F : FTy → Type} [FloatOps F]

/-! ## The edges and their weights -/

/-- The row endpoints: row 0 of the edge array, then the nodes 0, 1, … (one self loop each). -/
def edgeRow (e : (⟨S2x1600000, .i32⟩ : BufTy).Contents (Elt F)) : (⟨S1700000, .i32⟩ : BufTy).Contents (Elt F) :=
  concatenate S1700000 0 [⟨S1600000, (shapeCast _ (extractStridedSlice S1x1600000 ![0, 0] (e) slices_S2x1600000_S1x1600000_0_0) shapeCasts_S1x1600000_S1600000)⟩,
    ⟨S100000, (iotaInDim S100000 32 0)⟩] concatenates_S1600000_S100000_S1700000_d0

/-- The column endpoints: row 1 of the edge array, then the nodes 0, 1, …. -/
def edgeCol (e : (⟨S2x1600000, .i32⟩ : BufTy).Contents (Elt F)) : (⟨S1700000, .i32⟩ : BufTy).Contents (Elt F) :=
  concatenate S1700000 0 [⟨S1600000, (shapeCast _ (extractStridedSlice S1x1600000 ![1, 0] (e) slices_S2x1600000_S1x1600000_1_0) shapeCasts_S1x1600000_S1600000)⟩,
    ⟨S100000, (iotaInDim S100000 32 0)⟩] concatenates_S1600000_S100000_S1700000_d0

/-- The index words a gather reads: a negative word is moved up by the number of rows (100000), every other word is
    kept; one word per gathered row, as a column. -/
def wrapIdx (col : (⟨S1700000, .i32⟩ : BufTy).Contents (Elt F)) : (⟨S1700000x1, .i32⟩ : BufTy).Contents (Elt F) :=
  broadcastInDim S1700000x1 ![0] bcast_S1700000_S1700000x1_0
    (select (cmpi .slt col (broadcastInDim S1700000 ![] bcast_S_S1700000 (constantI S_ 32 0#32)))
      (addi col (broadcastInDim S1700000 ![] bcast_S_S1700000 (constantI S_ 32 100000#32))) col)

/-- The degree of every node: a one added, for every edge, at the edge's row endpoint. -/
def degree (row : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 row)
    (broadcastInDim S1700000 ![] bcast_S_S1700000 (constant S_ .f32 0x3F800000#32))

/-- Where the degree is positive. -/
def degPos (row : (⟨S1700000, .i32⟩ : BufTy).Contents (Elt F)) : (⟨S100000, .i1⟩ : BufTy).Contents (Elt F) :=
  cmpf .ogt (degree (F := F) row) (broadcastInDim S100000 ![] bcast_S_S100000 (constant S_ .f32 0x00000000#32))

/-- deg^(-1/2), taken everywhere. -/
def degRsqrt (row : (⟨S1700000, .i32⟩ : BufTy).Contents (Elt F)) : (⟨S100000, .f32⟩ : BufTy).Contents (Elt F) :=
  Host.rsqrt (degree (F := F) row)

/-- The scalar zero. -/
def zero0 : (⟨S_, .f32⟩ : BufTy).Contents (Elt F) := constant S_ .f32 0x00000000#32

/-- `x` where `p` holds, the scalar `z` elsewhere. -/
def whereSel (p : (⟨S100000, .i1⟩ : BufTy).Contents (Elt F)) (x : (⟨S100000, .f32⟩ : BufTy).Contents (Elt F)) (z : (⟨S_, .f32⟩ : BufTy).Contents (Elt F)) : (⟨S100000, .f32⟩ : BufTy).Contents (Elt F) :=
  select p x (broadcastInDim S100000 ![] bcast_S_S100000 (id z))

/-- deg^(-1/2) where the degree is positive, zero elsewhere. -/
def invSqrtDeg (row : (⟨S1700000, .i32⟩ : BufTy).Contents (Elt F)) : (⟨S100000, .f32⟩ : BufTy).Contents (Elt F) :=
  whereSel (degPos (F := F) row) (degRsqrt (F := F) row) (zero0 (F := F))

/-- The weight of every edge from a per-node factor: the product of the factor at its two endpoints. -/
def edgeNrmOf (dinv : (⟨S100000, .f32⟩ : BufTy).Contents (Elt F)) (row col : (⟨S1700000, .i32⟩ : BufTy).Contents (Elt F)) : (⟨S1700000, .f32⟩ : BufTy).Contents (Elt F) :=
  mulf (Host.gather gather_S100000_S1700000x1_S1700000_n_0_n_n_0_1_1 dinv (wrapIdx row))
    (Host.gather gather_S100000_S1700000x1_S1700000_n_0_n_n_0_1_1 dinv (wrapIdx col))

/-- The weight of every edge: the product of its two endpoints' deg^(-1/2). -/
def edgeNrm (row col : (⟨S1700000, .i32⟩ : BufTy).Contents (Elt F)) : (⟨S1700000, .f32⟩ : BufTy).Contents (Elt F) :=
  edgeNrmOf (invSqrtDeg (F := F) row) row col

/-! ## Aggregation over the edges -/

/-- Aggregation of an array of 128-entry rows: gather row col(e) of `h` for every edge e, scale it by nrm(e), and add it
    into row row(e) of a zero array. -/
def agg128 (h : (⟨S100000x128, .f32⟩ : BufTy).Contents (Elt F)) (row col : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 row)
    (mulf (Host.gather gather_S100000x128_S1700000x1_S1700000x128_1_0_n_n_0_1_1128 h (wrapIdx col))
      (broadcastInDim S1700000x128 ![0, 1] bcast_S1700000x1_S1700000x128_0_1
        (broadcastInDim S1700000x1 ![0] bcast_S1700000_S1700000x1_0 nrm)))

/-- The same aggregation of an array of 40-entry rows. -/
def agg40 (h : (⟨S100000x40, .f32⟩ : BufTy).Contents (Elt F)) (row col : (⟨S1700000, .i32⟩ : BufTy).Contents (Elt F))
    (nrm : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 row)
    (mulf (Host.gather gather_S100000x40_S1700000x1_S1700000x40_1_0_n_n_0_1_140 h (wrapIdx col))
      (broadcastInDim S1700000x40 ![0, 1] bcast_S1700000x1_S1700000x40_0_1
        (broadcastInDim S1700000x1 ![0] bcast_S1700000_S1700000x1_0 nrm)))

/-! ## The dense stages -/

/-- The first product, x · W1. -/
def mm128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The second product, r · W2. -/
def mm40 (r : (⟨S100000x128, .f32⟩ : BufTy).Contents (Elt F)) (w : (⟨S128x40, .f32⟩ : BufTy).Contents (Elt F)) : (⟨S100000x40, .f32⟩ : BufTy).Contents (Elt F) :=
  Host.dotGeneral dot_S100000x128_S128x40_S100000x40_1_0_0_1_n_n none r w

/-- A vector of 128 entries as one row. -/
def row128 (b : (⟨S128, .f32⟩ : BufTy).Contents (Elt F)) : (⟨S1x128, .f32⟩ : BufTy).Contents (Elt F) :=
  broadcastInDim S1x128 ![1] bcast_S128_S1x128_1 b

/-- A vector of 40 entries as one row. -/
def row40 (b : (⟨S40, .f32⟩ : BufTy).Contents (Elt F)) : (⟨S1x40, .f32⟩ : BufTy).Contents (Elt F) :=
  broadcastInDim S1x40 ![1] bcast_S40_S1x40_1 b

/-- max(a + b, 0), the bias given as one row of 128 entries added to every row. -/
def biasRelu (a : (⟨S100000x128, .f32⟩ : BufTy).Contents (Elt F)) (brow : (⟨S1x128, .f32⟩ : BufTy).Contents (Elt F)) : (⟨S100000x128, .f32⟩ : BufTy).Contents (Elt F) :=
  maximumf (addf a (broadcastInDim S100000x128 ![0, 1] bcast_S1x128_S100000x128_0_1 brow))
    (broadcastInDim S100000x128 ![] bcast_S_S100000x128 (constant S_ .f32 0x00000000#32))

/-- The largest entry of each row (the maximum with −∞ of the running maximum from −∞). -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- One value per row, repeated along the row's 40 entries. -/
def alongRow (v : (⟨S100000, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0 v)

/-- Every entry less its row's largest entry. -/
def shifted (z : (⟨S100000x40, .f32⟩ : BufTy).Contents (Elt F)) : (⟨S100000x40, .f32⟩ : BufTy).Contents (Elt F) :=
  subf z (alongRow (rowMax z))

/-- log of the sum over each row of the exponentials, repeated along the row. -/
def logSumExp (s : (⟨S100000x40, .f32⟩ : BufTy).Contents (Elt F)) : (⟨S100000x40, .f32⟩ : BufTy).Contents (Elt F) :=
  broadcastInDim S100000x40 ![0, 1] bcast_S100000x1_S100000x40_0_1
    (Host.log (broadcastInDim S100000x1 ![0] bcast_S100000_S100000x1_0
      (Host.reduceAdd (Host.exp s) (constant S_ .f32 0x00000000#32) reducesTo_S100000x40_S100000_d1 h_S_)))

/-- logSoftmax(a + b) along each row, the bias given as one row of 40 entries. -/
def biasLogSoftmax (a : (⟨S100000x40, .f32⟩ : BufTy).Contents (Elt F)) (brow : (⟨S1x40, .f32⟩ : BufTy).Contents (Elt F)) : (⟨S100000x40, .f32⟩ : BufTy).Contents (Elt F) :=
  subf (shifted (addf a (broadcastInDim S100000x40 ![0, 1] bcast_S1x40_S100000x40_0_1 brow)))
    (logSumExp (shifted (addf a (broadcastInDim S100000x40 ![0, 1] bcast_S1x40_S100000x40_0_1 brow))))

/-! ## The whole reference -/

/-- The reference's result as a function of its six arguments: the groups above, composed. -/
def whole (x : (⟨S100000x128, .f32⟩ : BufTy).Contents (Elt F)) (e : (⟨S2x1600000, .i32⟩ : BufTy).Contents (Elt F)) (w1 : (⟨S128x128, .f32⟩ : BufTy).Contents (Elt F))
    (b1 : (⟨S128, .f32⟩ : BufTy).Contents (Elt F)) (w2 : (⟨S128x40, .f32⟩ : BufTy).Contents (Elt F)) (b2 : (⟨S40, .f32⟩ : BufTy).Contents (Elt F)) : (⟨S100000x40, .f32⟩ : BufTy).Contents (Elt F) :=
  biasLogSoftmax
    (agg40 (mm40 (biasRelu (agg128 (mm128 x w1) (edgeRow e) (edgeCol e) (edgeNrm (edgeRow e) (edgeCol e))) (row128 b1)) w2)
      (edgeRow e) (edgeCol e) (edgeNrm (edgeRow e) (edgeCol e)))
    (row40 b2)

end Cert.Spec

end
-- ==== Proof.RefValue.lean ====
/-
  The reference's result, read as the specification's function of the six arguments.

  The reference is a straight line of 98 operations, and what a buffer holds after the line is the fold of the
  operations over the contents before it.  The fold over a list cut in two is the fold over the second part of the fold over the first
  (each operation only rewrites the contents it is handed), so the line can be cut anywhere and each piece read by
  itself: for ANY contents before a piece, a buffer the piece writes holds afterwards the composition of the piece's
  operations applied to the contents of the buffers the piece reads, and a buffer it does not write holds what it
  held.  The pieces are cut where the specification's functions begin and end — the edge lists with one self loop per
  node appended; where the degree is positive and its inverse square root; the selection between them; the edges'
  weights; a matrix product; the aggregation over the edges; the bias and the maximum with zero; the second product and
  aggregation; the bias and the logarithm of the softmax along each row — so each composition IS the corresponding
  function, by unfolding, and chaining the pieces gives the whole.
-/
import proofs.«128675_j73332271612558_1_alg».proof.Proof.RefRun
import proofs.«128675_j73332271612558_1_alg».proof.Proof.Spec
import Idealize.ShloMosaic.Lib.StableHlo.Run
import Idealize.ShloMosaic.Lib.Pipeline.Value
import Idealize.ShloMosaic.Lib.ValueIdx

set_option maxRecDepth 16384
set_option maxHeartbeats 4000000

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

/-! ## A cut of a fold is a fold of folds -/

/-- The contents after two lines run one after the other: the second line's fold over the first line's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A line cut after its first p operations. -/
theorem after_cut (l : List (HloOp τ sig (Elt Ideal))) (p : Nat) (V : Valuation τ sig (Elt Ideal)) :
    after l V = after (l.drop p) (after (l.take p) V) := by
  rw [← after_append, List.take_append_drop]

/-- The first p + n operations: the first p, then the next n. -/
theorem after_take_add (l : List (HloOp τ sig (Elt Ideal))) (p n : Nat) (V : Valuation τ sig (Elt Ideal)) :
    after (l.take (p + n)) V = after ((l.drop p).take n) (after (l.take p) V) := by
  rw [List.take_add, after_append]

/-! ## The last stage in seven steps

The logarithm of the softmax of a + b along each row, step by step: the bias row added to every row; each row's running
maximum from −∞; its maximum with −∞; every entry less that; the sum over each row of the exponentials; its logarithm,
repeated along the row; the difference.  Composed, they are the specification's function, by unfolding. -/

section Steps

variable {F : FTy → Type} [FloatOps F]

/-- An array of 40-entry rows with one row added to every row. -/
def addRow40 (a : (⟨S100000x40, .f32⟩ : BufTy).Contents (Elt F)) (brow : (⟨S1x40, .f32⟩ : BufTy).Contents (Elt F)) : (⟨S100000x40, .f32⟩ : BufTy).Contents (Elt F) :=
  addf a (broadcastInDim S100000x40 ![0, 1] bcast_S1x40_S100000x40_0_1 brow)

/-- The running maximum of each row, from −∞. -/
def runMax (z : (⟨S100000x40, .f32⟩ : BufTy).Contents (Elt F)) : (⟨S100000, .f32⟩ : BufTy).Contents (Elt F) :=
  Host.reduce FloatOps.maximumf z (constant S_ .f32 0xFF800000#32) reducesTo_S100000x40_S100000_d1 h_S_

/-- The maximum of −∞ and one value per row. -/
def maxNegInf (v : (⟨S100000, .f32⟩ : BufTy).Contents (Elt F)) : (⟨S100000, .f32⟩ : BufTy).Contents (Elt F) :=
  maximumf (broadcastInDim S100000 ![] bcast_S_S100000 (constant S_ .f32 0xFF800000#32)) v

/-- Every entry less its row's value. -/
def lessAlongRow (z : (⟨S100000x40, .f32⟩ : BufTy).Contents (Elt F)) (v : (⟨S100000, .f32⟩ : BufTy).Contents (Elt F)) : (⟨S100000x40, .f32⟩ : BufTy).Contents (Elt F) :=
  subf z (Cert.Spec.alongRow v)

/-- The sum over each row of the exponentials. -/
def sumExp (s : (⟨S100000x40, .f32⟩ : BufTy).Contents (Elt F)) : (⟨S100000, .f32⟩ : BufTy).Contents (Elt F) :=
  Host.reduceAdd (Host.exp s) (constant S_ .f32 0x00000000#32) reducesTo_S100000x40_S100000_d1 h_S_

/-- The logarithm of one value per row, repeated along the row's 40 entries. -/
def logAlongRow (t : (⟨S100000, .f32⟩ : BufTy).Contents (Elt F)) : (⟨S100000x40, .f32⟩ : BufTy).Contents (Elt F) :=
  broadcastInDim S100000x40 ![0, 1] bcast_S100000x1_S100000x40_0_1
    (Host.log (broadcastInDim S100000x1 ![0] bcast_S100000_S100000x1_0 t))

/-- The difference of two arrays of 40-entry rows. -/
def less40 (a b : (⟨S100000x40, .f32⟩ : BufTy).Contents (Elt F)) : (⟨S100000x40, .f32⟩ : BufTy).Contents (Elt F) := subf a b

/-- Every entry less its row's largest, from the steps. -/
abbrev shiftedOf (z : (⟨S100000x40, .f32⟩ : BufTy).Contents (Elt F)) : (⟨S100000x40, .f32⟩ : BufTy).Contents (Elt F) := lessAlongRow z (maxNegInf (runMax z))

/-- logSoftmax(a + b) along each row is the seven steps composed. -/
theorem biasLogSoftmax_eq (a : (⟨S100000x40, .f32⟩ : BufTy).Contents (Elt F)) (brow : (⟨S1x40, .f32⟩ : BufTy).Contents (Elt F)) :
    Cert.Spec.biasLogSoftmax a brow
      = less40 (shiftedOf (addRow40 a brow)) (logAlongRow (sumExp (shiftedOf (addRow40 a brow)))) := rfl

end Steps

variable (W : Valuation τ sig (Elt Ideal))

/-! ## The pieces, each over any contents before it -/

/-! ### Operations 0 … 17: the edge lists, where the degree is positive, its inverse square root, the scalar zero -/

theorem p0_row : after ((ops (F := Ideal)).take 18) W (Proc.devRef .tc main_v3) = Cert.Spec.edgeRow (F := Ideal) (W (Proc.devRef .tc main_arg1)) := by
  simp only [ops, List.take_succ_cons, List.take_zero]; after_results; rfl
theorem p0_col : after ((ops (F := Ideal)).take 18) W (Proc.devRef .tc main_v6) = Cert.Spec.edgeCol (F := Ideal) (W (Proc.devRef .tc main_arg1)) := by
  simp only [ops, List.take_succ_cons, List.take_zero]; after_results; rfl
theorem p0_pos : after ((ops (F := Ideal)).take 18) W (Proc.devRef .tc main_v12)
    = Cert.Spec.degPos (F := Ideal) (Cert.Spec.edgeRow (F := Ideal) (W (Proc.devRef .tc main_arg1))) := by
  simp only [ops, List.take_succ_cons, List.take_zero]; after_results; rfl
theorem p0_rsqrt : after ((ops (F := Ideal)).take 18) W (Proc.devRef .tc main_v13)
    = Cert.Spec.degRsqrt (F := Ideal) (Cert.Spec.edgeRow (F := Ideal) (W (Proc.devRef .tc main_arg1))) := by
  simp only [ops, List.take_succ_cons, List.take_zero]; after_results; rfl
theorem p0_zero : after ((ops (F := Ideal)).take 18) W (Proc.devRef .tc main_cst_2) = Cert.Spec.zero0 (F := Ideal) := by
  simp only [ops, List.take_succ_cons, List.take_zero]; after_results; rfl

/-! ### Operations 18 … 20: the inverse square root where the degree is positive, zero elsewhere -/

theorem p1_where : after (((ops (F := Ideal)).drop 18).take 3) W (Proc.devRef .tc main_v14)
    = Cert.Spec.whereSel (F := Ideal) (W (Proc.devRef .tc main_v12)) (W (Proc.devRef .tc main_v13)) (W (Proc.devRef .tc main_cst_2)) := by
  simp only [ops, List.drop_succ_cons, List.drop_zero, List.take_succ_cons, List.take_zero]; after_results; rfl
theorem p1_row : after (((ops (F := Ideal)).drop 18).take 3) W (Proc.devRef .tc main_v3) = W (Proc.devRef .tc main_v3) := by
  simp only [ops, List.drop_succ_cons, List.drop_zero, List.take_succ_cons, List.take_zero]; after_results
theorem p1_col : after (((ops (F := Ideal)).drop 18).take 3) W (Proc.devRef .tc main_v6) = W (Proc.devRef .tc main_v6) := by
  simp only [ops, List.drop_succ_cons, List.drop_zero, List.take_succ_cons, List.take_zero]; after_results

/-! ### Operations 21 … 39: the weight of every edge -/

theorem p2_nrm : after (((ops (F := Ideal)).drop 21).take 19) W (Proc.devRef .tc main_v29)
    = Cert.Spec.edgeNrmOf (F := Ideal) (W (Proc.devRef .tc main_v14)) (W (Proc.devRef .tc main_v3)) (W (Proc.devRef .tc main_v6)) := by
  simp only [ops, List.drop_succ_cons, List.drop_zero, List.take_succ_cons, List.take_zero]; after_results; rfl

/-! ### Operation 40: the first product -/

theorem p3_mm : after (((ops (F := Ideal)).drop 40).take 1) W (Proc.devRef .tc main_v30)
    = Cert.Spec.mm128 (F := Ideal) (W (Proc.devRef .tc main_arg0)) (W (Proc.devRef .tc main_arg2)) := by
  simp only [ops, List.drop_succ_cons, List.drop_zero, List.take_succ_cons, List.take_zero]; after_results; rfl
theorem p3_nrm : after (((ops (F := Ideal)).drop 40).take 1) W (Proc.devRef .tc main_v29) = W (Proc.devRef .tc main_v29) := by
  simp only [ops, List.drop_succ_cons, List.drop_zero, List.take_succ_cons, List.take_zero]; after_results

/-! ### Operations 21 … 40 leave the edge lists alone -/

theorem p23_row : after (((ops (F := Ideal)).drop 21).take 20) W (Proc.devRef .tc main_v3) = W (Proc.devRef .tc main_v3) := by
  simp only [ops, List.drop_succ_cons, List.drop_zero, List.take_succ_cons, List.take_zero]; after_results
theorem p23_col : after (((ops (F := Ideal)).drop 21).take 20) W (Proc.devRef .tc main_v6) = W (Proc.devRef .tc main_v6) := by
  simp only [ops, List.drop_succ_cons, List.drop_zero, List.take_succ_cons, List.take_zero]; after_results

/-! ### Operations 41 … 56: the aggregation of the 128-entry rows -/

set_option maxHeartbeats 16000000 in
theorem p4_agg : after (((ops (F := Ideal)).drop 41).take 16) W (Proc.devRef .tc main_v43)
    = Cert.Spec.agg128 (F := Ideal) (W (Proc.devRef .tc main_v30)) (W (Proc.devRef .tc main_v3)) (W (Proc.devRef .tc main_v6)) (W (Proc.devRef .tc main_v29)) := by
  simp only [ops, List.drop_succ_cons, List.drop_zero, List.take_succ_cons, List.take_zero]; after_results; rfl

/-! ### Operations 57 … 62: the first bias added and the maximum with zero -/

theorem p5_relu : after (((ops (F := Ideal)).drop 57).take 6) W (Proc.devRef .tc main_v47)
    = Cert.Spec.biasRelu (F := Ideal) (W (Proc.devRef .tc main_v43)) (Cert.Spec.row128 (F := Ideal) (W (Proc.devRef .tc main_arg3))) := by
  simp only [ops, List.drop_succ_cons, List.drop_zero, List.take_succ_cons, List.take_zero]; after_results; rfl

/-! ### Operation 63: the second product -/

theorem p6_mm : after (((ops (F := Ideal)).drop 63).take 1) W (Proc.devRef .tc main_v48)
    = Cert.Spec.mm40 (F := Ideal) (W (Proc.devRef .tc main_v47)) (W (Proc.devRef .tc main_arg4)) := by
  simp only [ops, List.drop_succ_cons, List.drop_zero, List.take_succ_cons, List.take_zero]; after_results; rfl

/-! ### Operations 41 … 63 leave the edge lists and the weights alone -/

theorem p456_row : after (((ops (F := Ideal)).drop 41).take 23) W (Proc.devRef .tc main_v3) = W (Proc.devRef .tc main_v3) := by
  simp only [ops, List.drop_succ_cons, List.drop_zero, List.take_succ_cons, List.take_zero]; after_results
theorem p456_col : after (((ops (F := Ideal)).drop 41).take 23) W (Proc.devRef .tc main_v6) = W (Proc.devRef .tc main_v6) := by
  simp only [ops, List.drop_succ_cons, List.drop_zero, List.take_succ_cons, List.take_zero]; after_results
theorem p456_nrm : after (((ops (F := Ideal)).drop 41).take 23) W (Proc.devRef .tc main_v29) = W (Proc.devRef .tc main_v29) := by
  simp only [ops, List.drop_succ_cons, List.drop_zero, List.take_succ_cons, List.take_zero]; after_results

/-! ### Operations 64 … 79: the aggregation of the 40-entry rows -/

set_option maxHeartbeats 16000000 in
theorem p7_agg : after (((ops (F := Ideal)).drop 64).take 16) W (Proc.devRef .tc main_v61)
    = Cert.Spec.agg40 (F := Ideal) (W (Proc.devRef .tc main_v48)) (W (Proc.devRef .tc main_v3)) (W (Proc.devRef .tc main_v6)) (W (Proc.devRef .tc main_v29)) := by
  simp only [ops, List.drop_succ_cons, List.drop_zero, List.take_succ_cons, List.take_zero]; after_results; rfl

/-! ### Operations 80 … 97: the second bias added and the logarithm of the softmax along each row, step by step -/

theorem q0_add : after (((ops (F := Ideal)).drop 80).take 3) W (Proc.devRef .tc main_v64)
    = addRow40 (F := Ideal) (W (Proc.devRef .tc main_v61)) (Cert.Spec.row40 (F := Ideal) (W (Proc.devRef .tc main_arg5))) := by
  simp only [ops, List.drop_succ_cons, List.drop_zero, List.take_succ_cons, List.take_zero]; after_results; rfl
/-- Contents moved to a buffer's own type and back are the contents. -/
theorem ofBuf_toBuf {T : BufTy} (x : TRef sig T) (v : T.Contents (Elt Ideal)) : x.ofBuf (x.toBuf v) = v := by
  obtain ⟨r, h, hd, hu⟩ := x
  subst h
  rfl

/-- Each row's running maximum from −∞: a fold over the row's entries.  The transports between a buffer's own type and
    the value's type are identities; with them removed the two sides are the same fold of the same array. -/
theorem q1_runMax : after (((ops (F := Ideal)).drop 83).take 2) W (Proc.devRef .tc main_call2_v0)
    = runMax (F := Ideal) (W (Proc.devRef .tc main_v64)) := by
  simp only [ops, List.drop_succ_cons, List.drop_zero, List.take_succ_cons, List.take_zero]; after_results
  simp only [ofBuf_toBuf]
  have e : (TRef.of (T := ⟨S100000x40, .f32⟩) main_v64).ofBuf (W (Proc.devRef .tc main_v64)) = W (Proc.devRef .tc main_v64) := rfl
  have o : ∀ v : (⟨S100000, .f32⟩ : BufTy).Contents (Elt Ideal), (TRef.of (T := ⟨S100000, .f32⟩) main_call2_v0).toBuf v = v :=
    fun _ => rfl
  rw [e, o]
  rfl
theorem q2_max : after (((ops (F := Ideal)).drop 85).take 3) W (Proc.devRef .tc main_call2_v2)
    = maxNegInf (F := Ideal) (W (Proc.devRef .tc main_call2_v0)) := by
  simp only [ops, List.drop_succ_cons, List.drop_zero, List.take_succ_cons, List.take_zero]; after_results; rfl
theorem q3_less : after (((ops (F := Ideal)).drop 88).take 3) W (Proc.devRef .tc main_call2_v5)
    = lessAlongRow (F := Ideal) (W (Proc.devRef .tc main_v64)) (W (Proc.devRef .tc main_call2_v2)) := by
  simp only [ops, List.drop_succ_cons, List.drop_zero, List.take_succ_cons, List.take_zero]; after_results; rfl
theorem q4_sumExp : after (((ops (F := Ideal)).drop 91).take 3) W (Proc.devRef .tc main_call2_v7)
    = sumExp (F := Ideal) (W (Proc.devRef .tc main_call2_v5)) := by
  simp only [ops, List.drop_succ_cons, List.drop_zero, List.take_succ_cons, List.take_zero]; after_results; rfl
theorem q5_log : after (((ops (F := Ideal)).drop 94).take 3) W (Proc.devRef .tc main_call2_v10)
    = logAlongRow (F := Ideal) (W (Proc.devRef .tc main_call2_v7)) := by
  simp only [ops, List.drop_succ_cons, List.drop_zero, List.take_succ_cons, List.take_zero]; after_results; rfl
theorem q6_less : after ((ops (F := Ideal)).drop 97) W (Proc.devRef .tc main_v65)
    = less40 (F := Ideal) (W (Proc.devRef .tc main_call2_v5)) (W (Proc.devRef .tc main_call2_v10)) := by
  simp only [ops, List.drop_succ_cons, List.drop_zero, List.take_succ_cons, List.take_zero]; after_results; rfl
theorem q12_sum : after (((ops (F := Ideal)).drop 83).take 5) W (Proc.devRef .tc main_v64) = W (Proc.devRef .tc main_v64) := by
  simp only [ops, List.drop_succ_cons, List.drop_zero, List.take_succ_cons, List.take_zero]; after_results
theorem q45_shifted : after (((ops (F := Ideal)).drop 91).take 6) W (Proc.devRef .tc main_call2_v5) = W (Proc.devRef .tc main_call2_v5) := by
  simp only [ops, List.drop_succ_cons, List.drop_zero, List.take_succ_cons, List.take_zero]; after_results

/-! ### No operation writes an argument -/

theorem arg0_kept : after ((ops (F := Ideal)).take 40) W (Proc.devRef .tc main_arg0) = W (Proc.devRef .tc main_arg0) := by
  simp only [ops, List.take_succ_cons, List.take_zero]; after_results
theorem arg2_kept : after ((ops (F := Ideal)).take 40) W (Proc.devRef .tc main_arg2) = W (Proc.devRef .tc main_arg2) := by
  simp only [ops, List.take_succ_cons, List.take_zero]; after_results
theorem arg3_kept : after ((ops (F := Ideal)).take 57) W (Proc.devRef .tc main_arg3) = W (Proc.devRef .tc main_arg3) := by
  simp only [ops, List.take_succ_cons, List.take_zero]; after_results
theorem arg4_kept : after ((ops (F := Ideal)).take 63) W (Proc.devRef .tc main_arg4) = W (Proc.devRef .tc main_arg4) := by
  simp only [ops, List.take_succ_cons, List.take_zero]; after_results
set_option maxHeartbeats 16000000 in
theorem arg5_kept : after ((ops (F := Ideal)).take 80) W (Proc.devRef .tc main_arg5) = W (Proc.devRef .tc main_arg5) := by
  simp only [ops, List.take_succ_cons, List.take_zero]; after_results

/-! ## The pieces chained -/

/-- The contents after the first p operations. -/
def upTo (p : Nat) : Valuation τ sig (Elt Ideal) := after ((ops (F := Ideal)).take p) W

/-- The first p + n operations: the next n over the contents after the first p. -/
theorem upTo_add (p n : Nat) : upTo W (p + n) = after (((ops (F := Ideal)).drop p).take n) (upTo W p) :=
  after_take_add _ p n W

theorem agg128_congr {h h' : (⟨S100000x128, .f32⟩ : BufTy).Contents (Elt Ideal)}
    {r r' k k' : (⟨S1700000, .i32⟩ : BufTy).Contents (Elt Ideal)} {n n' : (⟨S1700000, .f32⟩ : BufTy).Contents (Elt Ideal)}
    (e1 : h = h') (e2 : r = r') (e3 : k = k') (e4 : n = n') :
    Cert.Spec.agg128 (F := Ideal) h r k n = Cert.Spec.agg128 (F := Ideal) h' r' k' n' := by rw [e1, e2, e3, e4]

theorem agg40_congr {h h' : (⟨S100000x40, .f32⟩ : BufTy).Contents (Elt Ideal)}
    {r r' k k' : (⟨S1700000, .i32⟩ : BufTy).Contents (Elt Ideal)} {n n' : (⟨S1700000, .f32⟩ : BufTy).Contents (Elt Ideal)}
    (e1 : h = h') (e2 : r = r') (e3 : k = k') (e4 : n = n') :
    Cert.Spec.agg40 (F := Ideal) h r k n = Cert.Spec.agg40 (F := Ideal) h' r' k' n' := by rw [e1, e2, e3, e4]

/-- The edge array. -/
abbrev aE := W (Proc.devRef .tc main_arg1)
/-- The edges' row endpoints, column endpoints and weights, from the edge array. -/
abbrev eRow := Cert.Spec.edgeRow (F := Ideal) (aE W)
abbrev eCol := Cert.Spec.edgeCol (F := Ideal) (aE W)
abbrev eNrm := Cert.Spec.edgeNrm (F := Ideal) (eRow W) (eCol W)
/-- The first layer: max(agg (x · W1) + b1, 0). -/
abbrev layer1 := Cert.Spec.biasRelu (F := Ideal)
  (Cert.Spec.agg128 (F := Ideal) (Cert.Spec.mm128 (F := Ideal) (W (Proc.devRef .tc main_arg0)) (W (Proc.devRef .tc main_arg2))) (eRow W) (eCol W) (eNrm W))
  (Cert.Spec.row128 (F := Ideal) (W (Proc.devRef .tc main_arg3)))

/-! ### After operation 17, and after the selection -/

theorem row18 : upTo W 18 (Proc.devRef .tc main_v3) = eRow W := p0_row W
theorem col18 : upTo W 18 (Proc.devRef .tc main_v6) = eCol W := p0_col W

/-- The inverse square-root degrees, zero where the degree is zero. -/
theorem dinv21 : upTo W 21 (Proc.devRef .tc main_v14) = Cert.Spec.invSqrtDeg (F := Ideal) (eRow W) := by
  refine (congrFun (upTo_add W 18 3) _).trans ((p1_where (upTo W 18)).trans ?_)
  rw [show upTo W 18 (Proc.devRef .tc main_v12) = _ from p0_pos W, show upTo W 18 (Proc.devRef .tc main_v13) = _ from p0_rsqrt W,
    show upTo W 18 (Proc.devRef .tc main_cst_2) = _ from p0_zero W]
  rfl
theorem row21 : upTo W 21 (Proc.devRef .tc main_v3) = eRow W :=
  (congrFun (upTo_add W 18 3) _).trans ((p1_row (upTo W 18)).trans (row18 W))
theorem col21 : upTo W 21 (Proc.devRef .tc main_v6) = eCol W :=
  (congrFun (upTo_add W 18 3) _).trans ((p1_col (upTo W 18)).trans (col18 W))

/-! ### After the weights, and after the first product -/

/-- The weight of each edge: the product of its two endpoints' inverse square-root degrees. -/
theorem nrm40 : upTo W 40 (Proc.devRef .tc main_v29) = eNrm W := by
  refine (congrFun (upTo_add W 21 19) _).trans ((p2_nrm (upTo W 21)).trans ?_)
  rw [dinv21 W, row21 W, col21 W]
  rfl
theorem nrm41 : upTo W 41 (Proc.devRef .tc main_v29) = eNrm W :=
  (congrFun (upTo_add W 40 1) _).trans ((p3_nrm (upTo W 40)).trans (nrm40 W))
theorem row41 : upTo W 41 (Proc.devRef .tc main_v3) = eRow W :=
  (congrFun (upTo_add W 21 20) _).trans ((p23_row (upTo W 21)).trans (row21 W))
theorem col41 : upTo W 41 (Proc.devRef .tc main_v6) = eCol W :=
  (congrFun (upTo_add W 21 20) _).trans ((p23_col (upTo W 21)).trans (col21 W))
theorem mm41 : upTo W 41 (Proc.devRef .tc main_v30) = Cert.Spec.mm128 (F := Ideal) (W (Proc.devRef .tc main_arg0)) (W (Proc.devRef .tc main_arg2)) :=
  (congrFun (upTo_add W 40 1) _).trans ((p3_mm (upTo W 40)).trans
    (congrArg₂ (Cert.Spec.mm128 (F := Ideal)) (arg0_kept W) (arg2_kept W)))

/-! ### The first layer -/

theorem agg57 : upTo W 57 (Proc.devRef .tc main_v43)
    = Cert.Spec.agg128 (F := Ideal) (Cert.Spec.mm128 (F := Ideal) (W (Proc.devRef .tc main_arg0)) (W (Proc.devRef .tc main_arg2))) (eRow W) (eCol W) (eNrm W) :=
  (congrFun (upTo_add W 41 16) _).trans ((p4_agg (upTo W 41)).trans
    (agg128_congr (mm41 W) (row41 W) (col41 W) (nrm41 W)))
theorem relu63 : upTo W 63 (Proc.devRef .tc main_v47) = layer1 W :=
  (congrFun (upTo_add W 57 6) _).trans ((p5_relu (upTo W 57)).trans
    (congrArg₂ (Cert.Spec.biasRelu (F := Ideal)) (agg57 W) (congrArg (Cert.Spec.row128 (F := Ideal)) (arg3_kept W))))

/-! ### The second layer -/

theorem mm64 : upTo W 64 (Proc.devRef .tc main_v48) = Cert.Spec.mm40 (F := Ideal) (layer1 W) (W (Proc.devRef .tc main_arg4)) :=
  (congrFun (upTo_add W 63 1) _).trans ((p6_mm (upTo W 63)).trans
    (congrArg₂ (Cert.Spec.mm40 (F := Ideal)) (relu63 W) (arg4_kept W)))
theorem row64 : upTo W 64 (Proc.devRef .tc main_v3) = eRow W :=
  (congrFun (upTo_add W 41 23) _).trans ((p456_row (upTo W 41)).trans (row41 W))
theorem col64 : upTo W 64 (Proc.devRef .tc main_v6) = eCol W :=
  (congrFun (upTo_add W 41 23) _).trans ((p456_col (upTo W 41)).trans (col41 W))
theorem nrm64 : upTo W 64 (Proc.devRef .tc main_v29) = eNrm W :=
  (congrFun (upTo_add W 41 23) _).trans ((p456_nrm (upTo W 41)).trans (nrm41 W))
theorem agg80 : upTo W 80 (Proc.devRef .tc main_v61)
    = Cert.Spec.agg40 (F := Ideal) (Cert.Spec.mm40 (F := Ideal) (layer1 W) (W (Proc.devRef .tc main_arg4))) (eRow W) (eCol W) (eNrm W) :=
  (congrFun (upTo_add W 64 16) _).trans ((p7_agg (upTo W 64)).trans
    (agg40_congr (mm64 W) (row64 W) (col64 W) (nrm64 W)))

/-! ### The last stage, step by step -/

/-- The aggregated second product with the second bias added to every row. -/
abbrev preSoftmax := addRow40 (F := Ideal)
  (Cert.Spec.agg40 (F := Ideal) (Cert.Spec.mm40 (F := Ideal) (layer1 W) (W (Proc.devRef .tc main_arg4))) (eRow W) (eCol W) (eNrm W))
  (Cert.Spec.row40 (F := Ideal) (W (Proc.devRef .tc main_arg5)))

theorem sum83 : upTo W 83 (Proc.devRef .tc main_v64) = preSoftmax W :=
  (congrFun (upTo_add W 80 3) _).trans ((q0_add (upTo W 80)).trans
    (congrArg₂ (addRow40 (F := Ideal)) (agg80 W) (congrArg (Cert.Spec.row40 (F := Ideal)) (arg5_kept W))))
theorem sum88 : upTo W 88 (Proc.devRef .tc main_v64) = preSoftmax W :=
  (congrFun (upTo_add W 83 5) _).trans ((q12_sum (upTo W 83)).trans (sum83 W))
theorem runMax85 : upTo W 85 (Proc.devRef .tc main_call2_v0) = runMax (F := Ideal) (preSoftmax W) :=
  (congrFun (upTo_add W 83 2) _).trans ((q1_runMax (upTo W 83)).trans (congrArg (runMax (F := Ideal)) (sum83 W)))
theorem max88 : upTo W 88 (Proc.devRef .tc main_call2_v2) = maxNegInf (F := Ideal) (runMax (F := Ideal) (preSoftmax W)) :=
  (congrFun (upTo_add W 85 3) _).trans ((q2_max (upTo W 85)).trans (congrArg (maxNegInf (F := Ideal)) (runMax85 W)))
theorem shifted91 : upTo W 91 (Proc.devRef .tc main_call2_v5) = shiftedOf (F := Ideal) (preSoftmax W) :=
  (congrFun (upTo_add W 88 3) _).trans ((q3_less (upTo W 88)).trans
    (congrArg₂ (lessAlongRow (F := Ideal)) (sum88 W) (max88 W)))
theorem shifted97 : upTo W 97 (Proc.devRef .tc main_call2_v5) = shiftedOf (F := Ideal) (preSoftmax W) :=
  (congrFun (upTo_add W 91 6) _).trans ((q45_shifted (upTo W 91)).trans (shifted91 W))
theorem sumExp94 : upTo W 94 (Proc.devRef .tc main_call2_v7) = sumExp (F := Ideal) (shiftedOf (F := Ideal) (preSoftmax W)) :=
  (congrFun (upTo_add W 91 3) _).trans ((q4_sumExp (upTo W 91)).trans (congrArg (sumExp (F := Ideal)) (shifted91 W)))
theorem log97 : upTo W 97 (Proc.devRef .tc main_call2_v10)
    = logAlongRow (F := Ideal) (sumExp (F := Ideal) (shiftedOf (F := Ideal) (preSoftmax W))) :=
  (congrFun (upTo_add W 94 3) _).trans ((q5_log (upTo W 94)).trans (congrArg (logAlongRow (F := Ideal)) (sumExp94 W)))

/-- The result buffer after the 98 operations, as the specification's last function of the aggregated second product
    and the second bias as a row. -/
theorem result_eq : after (ops (F := Ideal)) W (Proc.devRef .tc main_v65)
    = Cert.Spec.biasLogSoftmax (F := Ideal)
        (Cert.Spec.agg40 (F := Ideal) (Cert.Spec.mm40 (F := Ideal) (layer1 W) (W (Proc.devRef .tc main_arg4))) (eRow W) (eCol W) (eNrm W))
        (Cert.Spec.row40 (F := Ideal) (W (Proc.devRef .tc main_arg5))) :=
  (congrFun (after_cut (ops (F := Ideal)) 97 W) _).trans ((q6_less (upTo W 97)).trans
    ((congrArg₂ (less40 (F := Ideal)) (shifted97 W) (log97 W)).trans (biasLogSoftmax_eq _ _).symm))

/-- The result buffer after the 98 operations is the specification's function of the six arguments' contents before
    them. -/
theorem whole_eq : after (ops (F := Ideal)) W (Proc.devRef .tc main_v65)
    = Cert.Spec.whole (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5)) :=
  result_eq W

end Cert.ReferenceIdeal.RefValue

end
-- ==== Proof.KernelValueRun.lean ====
/-
  The kernel's run with its result named.

  The program runs as nine segments — the host operations before the first kernel launch, then each launch and the
  host operations between launches — and the generated frame proof carries the contents of every unscoped buffer
  through them as a fold `W0, …, W9` from the launch memory.  Its last step reads the final state against `W9` and
  keeps only the six argument arrays.  Reading the result array against `W9` as well gives the run below: every weakly
  fair execution ends with the result at `W9`'s value for it, which the other modules compute region by region.
-/
import proofs.«128675_j73332271612558_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault, with the result array at the
    last boundary's contents `W9` and the six argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.HostStretch.lean ====
/-
  The host operations between the kernel launches, one stretch at a time, as functions of what they read.

  Between two launches the program runs a straight line of host operations.  For ANY contents `W` of the buffers
  before a stretch, a buffer the stretch writes holds afterwards the composition of the operations that produced it,
  applied to `W` at the buffers the stretch reads, and a buffer it does not write holds what it held.  The stretches
  of this program are the reference's own operations in the reference's own order — the edge lists with self loops
  appended and the normalisation weights before the first launch; a gather, a scaling and a scatter-add of rows after
  the first and after the third launch; a bias vector laid out as one row — so each composition IS the
  corresponding function of the reference, by unfolding.
-/
import proofs.«128675_j73332271612558_1_alg».proof.Proof.Gen.KernelIdeal.Launch
import proofs.«128675_j73332271612558_1_alg».proof.Proof.Spec
import Idealize.ShloMosaic.Lib.StableHlo.Run
import Idealize.ShloMosaic.Lib.Pipeline.Value
import Idealize.ShloMosaic.Lib.ValueIdx

set_option maxRecDepth 16384
set_option maxHeartbeats 4000000

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-! ## A vector laid out as one row -/

/-- Where entry (u, q) of a one-row array of 128 entries comes from in the vector: position q. -/
abbrev entryOf128 (i : S1x128.Idx) : S128.Idx := fun a => match a with
  | ⟨0, _⟩ => ⟨(i 1).val, (i 1).isLt⟩
/-- The same for 40 entries. -/
abbrev entryOf40 (i : S1x40.Idx) : S40.Idx := fun a => match a with
  | ⟨0, _⟩ => ⟨(i 1).val, (i 1).isLt⟩

/-- A vector of 128 entries reshaped to one row of 128 is the vector broadcast along a new leading axis of extent one:
    both read, at (0, q), the vector at q. -/
theorem row128 (x : (⟨S128, .f32⟩ : BufTy).Contents (Elt Ideal)) :
    (fun i => shapeCast S1x128 x shapeCasts_S128_S1x128 i) = Cert.Spec.row128 (F := Ideal) x := by
  funext i
  have e1 : shapeCast S1x128 x shapeCasts_S128_S1x128 i = x (entryOf128 i) :=
    shapeCast_apply x shapeCasts_S128_S1x128 i (entryOf128 i) (by
      rw [Shape.rowMajor_val_two, Shape.rowMajor_val_one]
      show (i 1).val = (i 0).val * 128 + (i 1).val
      have h0 : (i 0).val < 1 := (i 0).isLt
      omega)
  have e2 : Cert.Spec.row128 (F := Ideal) x i = x (entryOf128 i) := by
    unfold Cert.Spec.row128
    exact broadcastInDim_apply _ _ x i (entryOf128 i) (fun a => match a with
      | ⟨0, _⟩ => by show (i 1).val = if (128 : Nat) = 1 then 0 else (i 1).val; rw [if_neg (by decide)])
  exact e1.trans e2.symm

/-- The same for a vector of 40 entries. -/
theorem row40 (x : (⟨S40, .f32⟩ : BufTy).Contents (Elt Ideal)) :
    (fun i => shapeCast S1x40 x shapeCasts_S40_S1x40 i) = Cert.Spec.row40 (F := Ideal) x := by
  funext i
  have e1 : shapeCast S1x40 x shapeCasts_S40_S1x40 i = x (entryOf40 i) :=
    shapeCast_apply x shapeCasts_S40_S1x40 i (entryOf40 i) (by
      rw [Shape.rowMajor_val_two, Shape.rowMajor_val_one]
      show (i 1).val = (i 0).val * 40 + (i 1).val
      have h0 : (i 0).val < 1 := (i 0).isLt
      omega)
  have e2 : Cert.Spec.row40 (F := Ideal) x i = x (entryOf40 i) := by
    unfold Cert.Spec.row40
    exact broadcastInDim_apply _ _ x i (entryOf40 i) (fun a => match a with
      | ⟨0, _⟩ => by show (i 1).val = if (40 : Nat) = 1 then 0 else (i 1).val; rw [if_neg (by decide)])
  exact e1.trans e2.symm

/-! ## Before the first launch: the edge lists and the normalisation weights

The operations before the first launch come in three consecutive stretches (the second is the outlined
"x where p, else z"); each is read by itself, and the three readings are then composed. -/

theorem s0_row : after hostOps0 W (Proc.devRef .tc main_v3) = Cert.Spec.edgeRow (F := Ideal) (W (Proc.devRef .tc main_arg1)) := by
  dsimp only [hostOps0]; after_results; rfl
theorem s0_col : after hostOps0 W (Proc.devRef .tc main_v6) = Cert.Spec.edgeCol (F := Ideal) (W (Proc.devRef .tc main_arg1)) := by
  dsimp only [hostOps0]; after_results; rfl
theorem s0_pos : after hostOps0 W (Proc.devRef .tc main_v12)
    = Cert.Spec.degPos (F := Ideal) (Cert.Spec.edgeRow (F := Ideal) (W (Proc.devRef .tc main_arg1))) := by
  dsimp only [hostOps0]; after_results; rfl
theorem s0_rsqrt : after hostOps0 W (Proc.devRef .tc main_v13)
    = Cert.Spec.degRsqrt (F := Ideal) (Cert.Spec.edgeRow (F := Ideal) (W (Proc.devRef .tc main_arg1))) := by
  dsimp only [hostOps0]; after_results; rfl
theorem s0_zero : after hostOps0 W (Proc.devRef .tc main_cst_2) = Cert.Spec.zero0 (F := Ideal) := by
  dsimp only [hostOps0]; after_results; rfl

theorem s1_where : after hostOps0_1 W (Proc.devRef .tc main_v14)
    = Cert.Spec.whereSel (F := Ideal) (W (Proc.devRef .tc main_v12)) (W (Proc.devRef .tc main_v13)) (W (Proc.devRef .tc main_cst_2)) := by
  dsimp only [hostOps0_1]; after_results; rfl
theorem s1_row : after hostOps0_1 W (Proc.devRef .tc main_v3) = W (Proc.devRef .tc main_v3) := by dsimp only [hostOps0_1]; after_results
theorem s1_col : after hostOps0_1 W (Proc.devRef .tc main_v6) = W (Proc.devRef .tc main_v6) := by dsimp only [hostOps0_1]; after_results

theorem s2_nrm : after hostOps0_2 W (Proc.devRef .tc main_v29)
    = Cert.Spec.edgeNrmOf (F := Ideal) (W (Proc.devRef .tc main_v14)) (W (Proc.devRef .tc main_v3)) (W (Proc.devRef .tc main_v6)) := by
  dsimp only [hostOps0_2]; after_results; rfl
theorem s2_row : after hostOps0_2 W (Proc.devRef .tc main_v3) = W (Proc.devRef .tc main_v3) := by dsimp only [hostOps0_2]; after_results
theorem s2_col : after hostOps0_2 W (Proc.devRef .tc main_v6) = W (Proc.devRef .tc main_v6) := by dsimp only [hostOps0_2]; after_results

/-- The row endpoints: the first row of the edge array followed by one self loop per node. -/
theorem norm_row : after hostOps0_2 (after hostOps0_1 (after hostOps0 W)) (Proc.devRef .tc main_v3)
    = Cert.Spec.edgeRow (F := Ideal) (W (Proc.devRef .tc main_arg1)) :=
  (s2_row _).trans ((s1_row _).trans (s0_row W))

/-- The column endpoints: the second row of the edge array followed by one self loop per node. -/
theorem norm_col : after hostOps0_2 (after hostOps0_1 (after hostOps0 W)) (Proc.devRef .tc main_v6)
    = Cert.Spec.edgeCol (F := Ideal) (W (Proc.devRef .tc main_arg1)) :=
  (s2_col _).trans ((s1_col _).trans (s0_col W))

/-- The inverse square-root degrees, zero where the degree is zero. -/
theorem norm_dinv : after hostOps0_1 (after hostOps0 W) (Proc.devRef .tc main_v14)
    = Cert.Spec.invSqrtDeg (F := Ideal) (Cert.Spec.edgeRow (F := Ideal) (W (Proc.devRef .tc main_arg1))) := by
  refine (s1_where _).trans ?_
  rw [s0_pos W, s0_rsqrt W, s0_zero W]
  rfl

/-- The weight of each edge: the product of its two endpoints' inverse square-root degrees. -/
theorem norm_nrm : after hostOps0_2 (after hostOps0_1 (after hostOps0 W)) (Proc.devRef .tc main_v29)
    = Cert.Spec.edgeNrm (F := Ideal) (Cert.Spec.edgeRow (F := Ideal) (W (Proc.devRef .tc main_arg1))) (Cert.Spec.edgeCol (F := Ideal) (W (Proc.devRef .tc main_arg1))) := by
  refine (s2_nrm _).trans ?_
  rw [norm_dinv W, (s1_row _).trans (s0_row W), (s1_col _).trans (s0_col W)]
  rfl

theorem norm_arg0 : after hostOps0_2 (after hostOps0_1 (after hostOps0 W)) (Proc.devRef .tc main_arg0) = W (Proc.devRef .tc main_arg0) := by
  dsimp only [hostOps0_2, hostOps0_1, hostOps0]; after_results
theorem norm_arg2 : after hostOps0_2 (after hostOps0_1 (after hostOps0 W)) (Proc.devRef .tc main_arg2) = W (Proc.devRef .tc main_arg2) := by
  dsimp only [hostOps0_2, hostOps0_1, hostOps0]; after_results
theorem norm_arg3 : after hostOps0_2 (after hostOps0_1 (after hostOps0 W)) (Proc.devRef .tc main_arg3) = W (Proc.devRef .tc main_arg3) := by
  dsimp only [hostOps0_2, hostOps0_1, hostOps0]; after_results
theorem norm_arg4 : after hostOps0_2 (after hostOps0_1 (after hostOps0 W)) (Proc.devRef .tc main_arg4) = W (Proc.devRef .tc main_arg4) := by
  dsimp only [hostOps0_2, hostOps0_1, hostOps0]; after_results
theorem norm_arg5 : after hostOps0_2 (after hostOps0_1 (after hostOps0 W)) (Proc.devRef .tc main_arg5) = W (Proc.devRef .tc main_arg5) := by
  dsimp only [hostOps0_2, hostOps0_1, hostOps0]; after_results

/-! ## After the first launch: aggregation of the 128-entry rows, and the first bias as a row -/

set_option maxHeartbeats 16000000 in
theorem agg1 : after hostOps1 W (Proc.devRef .tc main_v43)
    = Cert.Spec.agg128 (F := Ideal) (W (Proc.devRef .tc main_v30)) (W (Proc.devRef .tc main_v3)) (W (Proc.devRef .tc main_v6))
        (W (Proc.devRef .tc main_v29)) := by
  dsimp only [hostOps1]; after_results; rfl

theorem bias1 : after hostOps1 W (Proc.devRef .tc main_v44)
    = Cert.Spec.row128 (F := Ideal) (W (Proc.devRef .tc main_arg3)) := by
  dsimp only [hostOps1]; after_results; exact row128 _

theorem keep1_row : after hostOps1 W (Proc.devRef .tc main_v3) = W (Proc.devRef .tc main_v3) := by dsimp only [hostOps1]; after_results
theorem keep1_col : after hostOps1 W (Proc.devRef .tc main_v6) = W (Proc.devRef .tc main_v6) := by dsimp only [hostOps1]; after_results
theorem keep1_nrm : after hostOps1 W (Proc.devRef .tc main_v29) = W (Proc.devRef .tc main_v29) := by dsimp only [hostOps1]; after_results
theorem keep1_arg4 : after hostOps1 W (Proc.devRef .tc main_arg4) = W (Proc.devRef .tc main_arg4) := by dsimp only [hostOps1]; after_results
theorem keep1_arg5 : after hostOps1 W (Proc.devRef .tc main_arg5) = W (Proc.devRef .tc main_arg5) := by dsimp only [hostOps1]; after_results

/-! ## After the third launch: aggregation of the 40-entry rows, and the second bias as a row -/

set_option maxHeartbeats 16000000 in
theorem agg3 : after hostOps3 W (Proc.devRef .tc main_v59)
    = Cert.Spec.agg40 (F := Ideal) (W (Proc.devRef .tc main_v46)) (W (Proc.devRef .tc main_v3)) (W (Proc.devRef .tc main_v6))
        (W (Proc.devRef .tc main_v29)) := by
  dsimp only [hostOps3]; after_results; rfl

theorem bias3 : after hostOps3 W (Proc.devRef .tc main_v60)
    = Cert.Spec.row40 (F := Ideal) (W (Proc.devRef .tc main_arg5)) := by
  dsimp only [hostOps3]; after_results; exact row40 _

end Cert.KernelIdeal.Stretch

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Region0.lean ====
/-
  The first matrix product, x · W1, as the pipeline leaves it.

  The region walks the 100000 × 128 array x in twenty blocks of 5000 rows; at each point it multiplies the block by the
  whole 128 × 128 matrix W1 and writes the 5000 × 128 result back as the same rows of the output array.  A change of
  float format is the identity at the ideal values, so entry (p, q) of point t's block is the sum over k < 128 of
  x(5000·t + p, k) · W1(k, q): the entry (5000·t + p, q) of the product of the whole arrays.  The blocks tile the output,
  so the output array ends as that product, which is also how the reference's dot_general reads entry by entry.
-/
import proofs.«128675_j73332271612558_1_alg».proof.Proof.Gen.KernelIdeal.Frame
import proofs.«128675_j73332271612558_1_alg».proof.Proof.Spec
import proofs.«128675_j73332271612558_1_alg».proof.Proof.LibPlainProduct
import Idealize.ShloMosaic.Lib.ValueIdx
import Idealize.ShloMosaic.Lib.Pipeline.Value
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx (ix2 eq_ix2 idx2_lt0 idx2_lt1)

/-- The product of a 100000 × 128 array and a 128 × 128 matrix, entry by entry: entry (r, q) is the sum over the
    contracted coordinate k of X(r, k) · W(k, q). -/
def prod (X : FVec Ideal S100000x128 .f32) (W : FVec Ideal S128x128 .f32) : FVec Ideal S100000x128 .f32 :=
  fun i => ∑ k : Fin 128, X (ix2 (n0 := 100000) ⟨(i 0).val, idx2_lt0 i⟩ k) * W (ix2 (n1 := 128) k ⟨(i 1).val, idx2_lt1 i⟩)

/-- The product at an index given by its two coordinates. -/
theorem prod_ix2 (X : FVec Ideal S100000x128 .f32) (W : FVec Ideal S128x128 .f32) (r : Fin 100000) (q : Fin 128) :
    prod X W (ix2 r q) = ∑ k : Fin 128, X (ix2 r k) * W (ix2 k q) := rfl

/-- The two zero offsets of a whole-block access, as the constant function. -/
theorem zero_offsets : (![0, 0] : Fin 2 → Nat) = fun _ => 0 := funext fun a => by fin_cases a <;> rfl

/-- What the body stores, at entry (p, q): the two changes of format drop out, and the matrix unit's product accumulated
    into the zero splat is the sum over k of the products of row p of the first block with column q of the second. -/
theorem payload_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibPlainProduct.matmul_zero_plain_apply _ none _ _ p q

/-- Entry (p, q) of what the body stores is entry (r, q') of the product of the whole arrays, as soon as row p of the
    first block is row r of X and column q of the second block is column q' of W. -/
theorem payload_entry (X : FVec Ideal S100000x128 .f32) (W : FVec Ideal S128x128 .f32)
    (x0 : Vec Ideal S5000x128 .f32) (x1 : Vec Ideal S128x128 .f32) (p : Fin 5000) (q : Fin 128)
    (r : Fin 100000) (q' : Fin 128)
    (h0 : ∀ k : Fin 128, x0 (ix2 p k) = X (ix2 r k)) (h1 : ∀ k : Fin 128, x1 (ix2 k q) = W (ix2 k q')) :
    k0_pay1 x0 x1 (ix2 p q) = prod X W (ix2 r q') := by
  rw [payload_apply, prod_ix2]
  exact Finset.sum_congr rfl fun k _ => by rw [h0 k, h1 k]

/-- The windows' index maps, decided over the grid: the block of x moves with the output's block (the same block index
    on both axes), the matrix W1 is taken whole at every point (block index zero on both axes), and the output's block
    index runs over 0 … 19 along the rows and is 0 along the columns. -/
theorem index_facts : ∀ t : Fin cfg0.N, win0_0.index t (0 : Fin 2) = win0_2.index t (0 : Fin 2) + 0
    ∧ win0_0.index t (1 : Fin 2) = win0_2.index t (1 : Fin 2) + 0
    ∧ win0_1.index t (0 : Fin 2) = 0
    ∧ win0_1.index t (1 : Fin 2) = 0
    ∧ 0 ≤ win0_2.index t (0 : Fin 2) ∧ win0_2.index t (0 : Fin 2) ≤ 19
    ∧ 0 ≤ win0_2.index t (1 : Fin 2) ∧ win0_2.index t (1 : Fin 2) ≤ 0 :=
  (by decide +kernel : ∀ t : Fin grid0.N, _)

/-- Every block of the output array is some point's. -/
theorem index_onto : ∀ (b0 : Fin 20) (b1 : Fin 1), ∃ t : Fin cfg0.N, win0_2.index t = ![b0.val + 0, b1.val + 0] :=
  (by decide +kernel : ∀ (b0 : Fin 20) (b1 : Fin 1), ∃ t : Fin grid0.N, win0_2.index t = ![b0.val + 0, b1.val + 0])

variable (V : (c : Dev nD) → (b : Ref sig .tc) → Buf (Elt Ideal) ((c : Thread nD τ).loc b))

/-- What point t writes back is block t of the product of the two arrays as the region finds them: an entry of a block
    sits in its array at block index × block size + its coordinate inside the block, on each axis. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, lo0, hi0, lo1, hi1⟩ := index_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = prod (V c main_arg0) (V c main_arg2) (((cfg0.win 2).blk t).view.emb (ix2 p q))
  refine (payload_entry (V c main_arg0) (V c main_arg2) (iblk0 V c 0 t) (iblk0 V c 1 t) p q
    ((((cfg0.win 2).blk t).view.emb (ix2 p q)) 0) ((((cfg0.win 2).blk t).view.emb (ix2 p q)) 1) (fun k => ?_) (fun k => ?_)).trans
    (congrArg (prod (V c main_arg0) (V c main_arg2)) (eq_ix2 (((cfg0.win 2).blk t).view.emb (ix2 p q))).symm)
  · -- row p of the block of x is row (block index · 5000 + p) of x
    show V c main_arg0 (((cfg0.win 0).blk t).view.emb (ix2 p k)) = V c main_arg0 _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · -- the block of W1 is W1 itself, and the output's block spans all 128 columns
    show V c main_arg2 (((cfg0.win 1).blk t).view.emb (ix2 k q)) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks tile the output array: row r lies in the block of the point whose block index is r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩ ⟨(i 1).val / 128, by omega⟩
  have b0 : win0_2.index t (0 : Fin 2) = (i 0).val / 5000 + 0 := congrFun ht 0
  have b1 : win0_2.index t (1 : Fin 2) = (i 1).val / 128 + 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two arrays as the region finds them, entry by entry. -/
theorem final_prod (c : Dev nD) :
    (dat0 (F := Ideal) V c).arrAt 2 cfg0.N = prod (V c main_arg0) (V c main_arg2) :=
  (dat0 (F := Ideal) V c).arrAt_eq_of_cover 2 (prod (V c main_arg0) (V c main_arg2)) (fun t _ => flushed_eq V c t) covered

/-- The reference's first product reads entry by entry as the same sums. -/
theorem prod_eq_mm128 (X : FVec Ideal S100000x128 .f32) (W : FVec Ideal S128x128 .f32) :
    prod X W = Cert.Spec.mm128 (F := Ideal) X W := by
  funext i
  obtain ⟨r, q, rfl⟩ : ∃ (r : Fin 100000) (q : Fin 128), i = ix2 r q := ⟨i 0, i 1, eq_ix2 i⟩
  show _ = Host.dotGeneral (F := Ideal) Cert.ReferenceIdeal.dot_S100000x128_S128x128_S100000x128_1_0_0_1_n_n none X W (ix2 r q)
  exact (Cert.LibPlainProduct.dotGeneral_plain_apply _ none X W r q).symm

/-- The output array after the region is the reference's first product of the two arrays as the region finds them. -/
theorem final (c : Dev nD) :
    (dat0 (F := Ideal) V c).arrAt 2 cfg0.N = Cert.Spec.mm128 (F := Ideal) (V c main_arg0) (V c main_arg2) :=
  (final_prod V c).trans (prod_eq_mm128 _ _)

end Cert.KernelIdeal.Region0

end
-- ==== Proof.Region1.lean ====
/-
  The bias + relu region: after its twenty grid points the region's output array holds, at row r and lane q,
  max(a(r, q) + b(0, q), 0), where a is the aggregated array the region finds and b the one-row bias.

  The body's arithmetic is read at one entry of a block (a sum with the bias row repeated down the block, then a
  maximum with a repeated zero); the block a point writes back is the matching block of one function of the whole
  arrays; the blocks of the twenty points fill the array; and the reference's stage, read at an entry through its two
  broadcasts, is that same function.
-/
import proofs.«128675_j73332271612558_1_alg».proof.Proof.Gen.KernelIdeal.Frame
import proofs.«128675_j73332271612558_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx

/-! ## The function the output array ends holding -/

/-- The bias entry an entry of the array meets: row 0 of the bias, the entry's own lane. -/
abbrev biasIdx (i : S100000x128.Idx) : S1x128.Idx := ix2 (0 : Fin 1) (⟨(i 1).val, (i 1).isLt⟩ : Fin 128)

/-- max(a(r, q) + b(0, q), 0) at every entry (r, q); the zero is the all-zero f32 word's value. -/
def reluBias (a : FVec Ideal S100000x128 .f32) (b : FVec Ideal S1x128 .f32) : FVec Ideal S100000x128 .f32 :=
  fun i => max (a i + b (biasIdx i)) (Ideal.ofBits .f32 0x00000000#32)

/-! ## The body's arithmetic at one entry of a block -/

/-- At (p, q) of a block: the block's entry plus the bias row's entry in lane q, then the maximum with zero. Both
    shape casts keep the shape; the row broadcast reads row 0; the repeated zero reads the zero everywhere. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  have e0 : shapeCast S5000x128 x0 shapeCasts_S5000x128_S5000x128 = x0 := shapeCast_self x0 _
  have e1 : shapeCast S1x128 x1 shapeCasts_S1x128_S1x128 = x1 := shapeCast_self x1 _
  show max (shapeCast S5000x128 x0 shapeCasts_S5000x128_S5000x128 (ix2 p q)
        + broadcastTo S5000x128 (shapeCast S1x128 x1 shapeCasts_S1x128_S1x128) broadcasts_S1x128_S5000x128 (ix2 p q))
      (Ideal.ofBits .f32 0x00000000#32) = _
  rw [e0, e1, broadcastTo_1b_ab_apply x1 broadcasts_S1x128_S5000x128 p q]

/-- One entry of a block against the same entry of the array: when the block's entry sits at array index i, and the
    bias entry read is the one array index i meets, the body's value there is reluBias at i. -/
theorem block_entry (a : FVec Ideal S100000x128 .f32) (b : FVec Ideal S1x128 .f32) (i0 i : S100000x128.Idx)
    (i1 : S1x128.Idx) (h0 : i0 = i) (h1 : i1 = biasIdx i) :
    max (a i0 + b i1) (Ideal.ofBits .f32 0x00000000#32) = reluBias a b i := by
  rw [h0, h1]; rfl

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input block moves with the output block, the bias is taken whole at every
    point, and the output's block index is (point, 0). -/
theorem index_facts : ∀ t : Fin cfg1.N, win1_0.index t (0 : Fin 2) = win1_2.index t (0 : Fin 2) + 0
    ∧ win1_0.index t (1 : Fin 2) = win1_2.index t (1 : Fin 2) + 0
    ∧ win1_1.index t (0 : Fin 2) = 0
    ∧ win1_1.index t (1 : Fin 2) = 0
    ∧ 0 ≤ win1_2.index t (0 : Fin 2) ∧ win1_2.index t (0 : Fin 2) ≤ 19
    ∧ 0 ≤ win1_2.index t (1 : Fin 2) ∧ win1_2.index t (1 : Fin 2) ≤ 0 :=
  (by decide +kernel : ∀ t : Fin grid1.N, _)

/-- Every block of the output array is some point's. -/
theorem index_onto : ∀ (q0 : Fin 20) (q1 : Fin 1), ∃ t : Fin cfg1.N, win1_2.index t = ![q0.val + 0, q1.val + 0] :=
  (by decide +kernel : ∀ (q0 : Fin 20) (q1 : Fin 1), ∃ t : Fin grid1.N, win1_2.index t = ![q0.val + 0, q1.val + 0])

/-- What point t writes back is block t of reluBias of the two arrays as the region finds them. -/
theorem flushed_eq (c : Dev nD) (t : Fin cfg1.N) :
    (dat1 (F := Ideal) V c).flushed 2 t
      = ((cfg1.win 2).blk t).view.read (Elt Ideal) (reluBias (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5, e6, e7⟩ := index_facts t
  funext j
  obtain ⟨p, q, rfl⟩ : ∃ (p : Fin 5000) (q : Fin 128), j = ix2 p q := ⟨j 0, j 1, eq_ix2 j⟩
  refine (pay_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = biasIdx (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; have hq : q.val < 128 := q.isLt; omega
  exact block_entry (V c main_v43) (V c main_v44) (((cfg1.win 0).blk t).view.emb (ix2 p q))
    (((cfg1.win 2).blk t).view.emb (ix2 p q)) (((cfg1.win 1).blk t).view.emb (ix2 (0 : Fin 1) q)) h0 h1

/-- An index of the array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every entry of the array lies in the block of a point that writes back: row r in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩ ⟨(i 1).val / 128, by omega⟩
  have q0 : win1_2.index t (0 : Fin 2) = (i 0).val / 5000 + 0 := congrFun ht 0
  have q1 : win1_2.index t (1 : Fin 2) = (i 1).val / 128 + 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array after the region's twenty points: reluBias of the two arrays the region finds, entry by entry. -/
theorem final_entries (c : Dev nD) :
    (dat1 (F := Ideal) V c).arrAt 2 cfg1.N = reluBias (V c main_v43) (V c main_v44) :=
  (dat1 V c).arrAt_eq_of_cover 2 (reluBias (V c main_v43) (V c main_v44)) (fun t _ => flushed_eq V c t) cover

/-! ## The reference's stage is the same function -/

/-- The reference's max(a + b, 0) read at an entry: the bias row broadcast over the rows reads row 0 at the entry's
    lane, and the rank-0 zero broadcast over the array reads the zero constant at its one index. -/
theorem spec_eq (a : FVec Ideal S100000x128 .f32) (b : FVec Ideal S1x128 .f32) :
    Cert.Spec.biasRelu (F := Ideal) a b = reluBias a b := by
  funext i
  have hb : ∀ (h : Cert.ReferenceIdeal.S1x128.BroadcastsInDim Cert.ReferenceIdeal.S100000x128 ![0, 1]),
      broadcastInDim Cert.ReferenceIdeal.S100000x128 ![0, 1] h b i = b (biasIdx i) := fun h =>
    broadcastInDim_apply _ h b i (biasIdx i) (fun ax => match ax with
      | ⟨0, _⟩ => by show 0 = if (1 : Nat) = 1 then 0 else (i 0).val; rw [if_pos rfl]
      | ⟨1, _⟩ => by show (i 1).val = if (128 : Nat) = 1 then 0 else (i 1).val; rw [if_neg (by decide)])
  have hz : ∀ (h : Cert.ReferenceIdeal.S_.BroadcastsInDim Cert.ReferenceIdeal.S100000x128 ![]),
      broadcastInDim Cert.ReferenceIdeal.S100000x128 ![] h (constant (F := Ideal) Cert.ReferenceIdeal.S_ .f32 0x00000000#32) i
        = Ideal.ofBits .f32 0x00000000#32 := fun h =>
    broadcastInDim_apply _ h _ i (fun ax => ax.elim0) (fun ax => ax.elim0)
  unfold Cert.Spec.biasRelu reluBias
  exact congrArg₂ max (congrArg (fun x => a i + x) (hb _)) (hz _)

/-- The region's output array after its twenty points is the reference's bias + relu stage of the two arrays the
    region finds. -/
theorem final (c : Dev nD) :
    (dat1 (F := Ideal) V c).arrAt 2 cfg1.N = Cert.Spec.biasRelu (F := Ideal) (V c main_v43) (V c main_v44) :=
  (final_entries V c).trans (spec_eq (V c main_v43) (V c main_v44)).symm

end Cert.KernelIdeal.Region1

end
-- ==== Proof.Region2.lean ====
/-
  The second matrix product, r · W2, as the pipeline leaves it.

  The region walks the 100000 × 128 array r (the first layer's output) in twenty blocks of 5000 rows; at each point it
  multiplies the block by the whole 128 × 40 matrix W2 and writes the 5000 × 40 result back as the same rows of the output
  array.  A reshape to the same shape and a change of float format are the identity at the ideal values, so entry (p, q) of
  point t's block is the sum over k < 128 of r(5000·t + p, k) · W2(k, q): the entry (5000·t + p, q) of the product of the
  whole arrays.  The blocks tile the output, so the output array ends as that product, which is also how the reference's
  dot_general reads entry by entry.
-/
import proofs.«128675_j73332271612558_1_alg».proof.Proof.Gen.KernelIdeal.Frame
import proofs.«128675_j73332271612558_1_alg».proof.Proof.Spec
import proofs.«128675_j73332271612558_1_alg».proof.Proof.LibPlainProduct
import Idealize.ShloMosaic.Lib.ValueIdx
import Idealize.ShloMosaic.Lib.Pipeline.Value
import Idealize.ShloMosaic.PureOps.Ideal.Laws

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx (ix2 eq_ix2 idx2_lt0 idx2_lt1)

/-- The product of a 100000 × 128 array and a 128 × 40 matrix, entry by entry: entry (r, q) is the sum over the
    contracted coordinate k of X(r, k) · W(k, q). -/
def prod (X : FVec Ideal S100000x128 .f32) (W : FVec Ideal S128x40 .f32) : FVec Ideal S100000x40 .f32 :=
  fun i => ∑ k : Fin 128, X (ix2 (n0 := 100000) ⟨(i 0).val, idx2_lt0 i⟩ k) * W (ix2 (n1 := 40) k ⟨(i 1).val, idx2_lt1 i⟩)

/-- The product at an index given by its two coordinates. -/
theorem prod_ix2 (X : FVec Ideal S100000x128 .f32) (W : FVec Ideal S128x40 .f32) (r : Fin 100000) (q : Fin 40) :
    prod X W (ix2 r q) = ∑ k : Fin 128, X (ix2 r k) * W (ix2 k q) := rfl

/-- The two zero offsets of a whole-block access, as the constant function. -/
theorem zero_offsets : (![0, 0] : Fin 2 → Nat) = fun _ => 0 := funext fun a => by fin_cases a <;> rfl

/-- What the body stores, at entry (p, q): the reshape to the same shape and the two changes of format drop out, and the
    matrix unit's product accumulated into the zero splat is the sum over k of the products of row p of the first block
    with column q of the second. -/
theorem payload_apply (x0 : Vec Ideal S5000x128 .f32) (x1 : Vec Ideal S128x40 .f32) (p : Fin 5000) (q : Fin 40) :
    k2_pay1 x0 x1 (ix2 p q) = ∑ k : Fin 128, x0 (ix2 p k) * x1 (ix2 k q) := by
  unfold k2_pay1
  simp only [shapeCast_self]
  exact Cert.LibPlainProduct.matmul_zero_plain_apply _ none _ _ p q

/-- Entry (p, q) of what the body stores is entry (r, q') of the product of the whole arrays, as soon as row p of the
    first block is row r of X and column q of the second block is column q' of W. -/
theorem payload_entry (X : FVec Ideal S100000x128 .f32) (W : FVec Ideal S128x40 .f32)
    (x0 : Vec Ideal S5000x128 .f32) (x1 : Vec Ideal S128x40 .f32) (p : Fin 5000) (q : Fin 40)
    (r : Fin 100000) (q' : Fin 40)
    (h0 : ∀ k : Fin 128, x0 (ix2 p k) = X (ix2 r k)) (h1 : ∀ k : Fin 128, x1 (ix2 k q) = W (ix2 k q')) :
    k2_pay1 x0 x1 (ix2 p q) = prod X W (ix2 r q') := by
  rw [payload_apply, prod_ix2]
  exact Finset.sum_congr rfl fun k _ => by rw [h0 k, h1 k]

/-- The windows' index maps, decided over the grid: the block of r moves with the output's block along the rows (the same
    block index) and spans all its 128 columns (block index zero), the matrix W2 is taken whole at every point (block
    index zero on both axes), and the output's block index runs over 0 … 19 along the rows and is 0 along the columns. -/
theorem index_facts : ∀ t : Fin cfg2.N, win2_0.index t (0 : Fin 2) = win2_2.index t (0 : Fin 2) + 0
    ∧ win2_0.index t (1 : Fin 2) = 0
    ∧ win2_1.index t (0 : Fin 2) = 0
    ∧ win2_1.index t (1 : Fin 2) = 0
    ∧ 0 ≤ win2_2.index t (0 : Fin 2) ∧ win2_2.index t (0 : Fin 2) ≤ 19
    ∧ 0 ≤ win2_2.index t (1 : Fin 2) ∧ win2_2.index t (1 : Fin 2) ≤ 0 :=
  (by decide +kernel : ∀ t : Fin grid2.N, _)

/-- Every block of the output array is some point's. -/
theorem index_onto : ∀ (b0 : Fin 20) (b1 : Fin 1), ∃ t : Fin cfg2.N, win2_2.index t = ![b0.val + 0, b1.val + 0] :=
  (by decide +kernel : ∀ (b0 : Fin 20) (b1 : Fin 1), ∃ t : Fin grid2.N, win2_2.index t = ![b0.val + 0, b1.val + 0])

variable (V : (c : Dev nD) → (b : Ref sig .tc) → Buf (Elt Ideal) ((c : Thread nD τ).loc b))

/-- What point t writes back is block t of the product of the two arrays as the region finds them: an entry of a block
    sits in its array at block index × block size + its coordinate inside the block, on each axis. -/
theorem flushed_eq (c : Dev nD) (t : Fin cfg2.N) :
    (dat2 (F := Ideal) V c).flushed 2 t
      = ((cfg2.win 2).blk t).view.read (Elt Ideal) (prod (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x40) zero_offsets]
  obtain ⟨e00, e01, e10, e11, lo0, hi0, lo1, hi1⟩ := index_facts t
  funext j
  obtain ⟨p, q, rfl⟩ : ∃ (p : Fin 5000) (q : Fin 40), j = ix2 p q := ⟨j 0, j 1, eq_ix2 j⟩
  show k2_pay1 (iblk2 V c 0 t) (iblk2 V c 1 t) (ix2 p q)
    = prod (V c main_v45) (V c main_arg4) (((cfg2.win 2).blk t).view.emb (ix2 p q))
  refine (payload_entry (V c main_v45) (V c main_arg4) (iblk2 V c 0 t) (iblk2 V c 1 t) p q
    ((((cfg2.win 2).blk t).view.emb (ix2 p q)) 0) ((((cfg2.win 2).blk t).view.emb (ix2 p q)) 1) (fun k => ?_) (fun k => ?_)).trans
    (congrArg (prod (V c main_v45) (V c main_arg4)) (eq_ix2 (((cfg2.win 2).blk t).view.emb (ix2 p q))).symm)
  · -- row p of the block of r is row (block index · 5000 + p) of r
    show V c main_v45 (((cfg2.win 0).blk t).view.emb (ix2 p k)) = V c main_v45 _
    refine congrArg (V c main_v45) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  · -- the block of W2 is W2 itself, and the output's block spans all 40 columns
    show V c main_arg4 (((cfg2.win 1).blk t).view.emb (ix2 k q)) = V c main_arg4 _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega

/-- An index of the output array is in point t's block iff each coordinate is in the block's range on its axis. -/
theorem mem_block (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v46).slice (win2_2.rect t)).set ↔ _
  rw [View.set_slice_whole, Rect.mem_set_unit]
  exact Iff.rfl

/-- The twenty blocks tile the output array: row r lies in the block of the point whose block index is r / 5000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := index_onto ⟨(i 0).val / 5000, by omega⟩ ⟨(i 1).val / 40, by omega⟩
  have b0 : win2_2.index t (0 : Fin 2) = (i 0).val / 5000 + 0 := congrFun ht 0
  have b1 : win2_2.index t (1 : Fin 2) = (i 1).val / 40 + 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array after the region: the product of the two arrays as the region finds them, entry by entry. -/
theorem final_prod (c : Dev nD) :
    (dat2 (F := Ideal) V c).arrAt 2 cfg2.N = prod (V c main_v45) (V c main_arg4) :=
  (dat2 (F := Ideal) V c).arrAt_eq_of_cover 2 (prod (V c main_v45) (V c main_arg4)) (fun t _ => flushed_eq V c t) covered

/-- The reference's second product reads entry by entry as the same sums. -/
theorem prod_eq_mm40 (X : FVec Ideal S100000x128 .f32) (W : FVec Ideal S128x40 .f32) :
    prod X W = Cert.Spec.mm40 (F := Ideal) X W := by
  funext i
  obtain ⟨r, q, rfl⟩ : ∃ (r : Fin 100000) (q : Fin 40), i = ix2 r q := ⟨i 0, i 1, eq_ix2 i⟩
  show _ = Host.dotGeneral (F := Ideal) Cert.ReferenceIdeal.dot_S100000x128_S128x40_S100000x40_1_0_0_1_n_n none X W (ix2 r q)
  exact (Cert.LibPlainProduct.dotGeneral_plain_apply _ none X W r q).symm

/-- The output array after the region is the reference's second product of the two arrays as the region finds them. -/
theorem final (c : Dev nD) :
    (dat2 (F := Ideal) V c).arrAt 2 cfg2.N = Cert.Spec.mm40 (F := Ideal) (V c main_v45) (V c main_arg4) :=
  (final_prod V c).trans (prod_eq_mm40 _ _)

end Cert.KernelIdeal.Region2

end
-- ==== Proof.Walk.lean ====
/-
  The kernel's buffers, boundary by boundary.

  The program is four kernel regions among stretches of host operations, and the generated frame names the contents
  of the buffers at each boundary: `W3` when the first region is entered, `W4` when it is left, `W5` after the host
  operations that follow, and so on to `W9`.  Each region turns its two input arrays into its output array — a
  product, a bias and a rectifier, a product, a bias and a log-softmax — and touches nothing else; each stretch is
  the reference's own gather, scaling and scatter-add.  So, walking from the launch to the last region's entry, every
  buffer a later step reads is a function of the six arguments as launched: the edge endpoints and weights, the
  first layer, and finally the aggregated second product and the second bias as a row.
-/
import proofs.«128675_j73332271612558_1_alg».proof.Proof.Gen.KernelIdeal.Frame
import proofs.«128675_j73332271612558_1_alg».proof.Proof.Spec
import proofs.«128675_j73332271612558_1_alg».proof.Proof.HostStretch
import proofs.«128675_j73332271612558_1_alg».proof.Proof.Region0
import proofs.«128675_j73332271612558_1_alg».proof.Proof.Region1
import proofs.«128675_j73332271612558_1_alg».proof.Proof.Region2

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments and the edge arrays, named -/

/-- The node features x. -/
abbrev aX := m ((c : Thread nD τ).loc main_arg0)
/-- The edge array. -/
abbrev aE := m ((c : Thread nD τ).loc main_arg1)
/-- The weights and biases of the two layers. -/
abbrev aW1 := m ((c : Thread nD τ).loc main_arg2)
abbrev aB1 := m ((c : Thread nD τ).loc main_arg3)
abbrev aW2 := m ((c : Thread nD τ).loc main_arg4)
abbrev aB2 := m ((c : Thread nD τ).loc main_arg5)

/-- The edges' row endpoints, column endpoints and weights, from the edge array. -/
abbrev eRow := Cert.Spec.edgeRow (F := Ideal) (aE m c)
abbrev eCol := Cert.Spec.edgeCol (F := Ideal) (aE m c)
abbrev eNrm := Cert.Spec.edgeNrm (F := Ideal) (eRow m c) (eCol m c)

/-- The first layer: max(agg (x · W1) + b1, 0). -/
abbrev layer1 := Cert.Spec.biasRelu (F := Ideal)
  (Cert.Spec.agg128 (F := Ideal) (Cert.Spec.mm128 (F := Ideal) (aX m c) (aW1 m c)) (eRow m c) (eCol m c) (eNrm m c)) (Cert.Spec.row128 (F := Ideal) (aB1 m c))

theorem agg128_congr {h h' : (⟨Cert.ReferenceIdeal.S100000x128, .f32⟩ : BufTy).Contents (Elt Ideal)}
    {r r' k k' : (⟨Cert.ReferenceIdeal.S1700000, .i32⟩ : BufTy).Contents (Elt Ideal)}
    {n n' : (⟨Cert.ReferenceIdeal.S1700000, .f32⟩ : BufTy).Contents (Elt Ideal)}
    (e1 : h = h') (e2 : r = r') (e3 : k = k') (e4 : n = n') :
    Cert.Spec.agg128 (F := Ideal) h r k n = Cert.Spec.agg128 (F := Ideal) h' r' k' n' := by rw [e1, e2, e3, e4]

theorem agg40_congr {h h' : (⟨Cert.ReferenceIdeal.S100000x40, .f32⟩ : BufTy).Contents (Elt Ideal)}
    {r r' k k' : (⟨Cert.ReferenceIdeal.S1700000, .i32⟩ : BufTy).Contents (Elt Ideal)}
    {n n' : (⟨Cert.ReferenceIdeal.S1700000, .f32⟩ : BufTy).Contents (Elt Ideal)}
    (e1 : h = h') (e2 : r = r') (e3 : k = k') (e4 : n = n') :
    Cert.Spec.agg40 (F := Ideal) h r k n = Cert.Spec.agg40 (F := Ideal) h' r' k' n' := by rw [e1, e2, e3, e4]

/-! ## When the first region is entered: the arguments as launched, the edge arrays computed -/

theorem in0_x : W3 m ρ c (Proc.devRef .tc main_arg0) = aX m c := Stretch.norm_arg0 (W0 m ρ c)
theorem in0_w1 : W3 m ρ c (Proc.devRef .tc main_arg2) = aW1 m c := Stretch.norm_arg2 (W0 m ρ c)
theorem in0_b1 : W3 m ρ c (Proc.devRef .tc main_arg3) = aB1 m c := Stretch.norm_arg3 (W0 m ρ c)
theorem in0_w2 : W3 m ρ c (Proc.devRef .tc main_arg4) = aW2 m c := Stretch.norm_arg4 (W0 m ρ c)
theorem in0_b2 : W3 m ρ c (Proc.devRef .tc main_arg5) = aB2 m c := Stretch.norm_arg5 (W0 m ρ c)
theorem in0_row : W3 m ρ c (Proc.devRef .tc main_v3) = eRow m c := Stretch.norm_row (W0 m ρ c)
theorem in0_col : W3 m ρ c (Proc.devRef .tc main_v6) = eCol m c := Stretch.norm_col (W0 m ρ c)
theorem in0_nrm : W3 m ρ c (Proc.devRef .tc main_v29) = eNrm m c := Stretch.norm_nrm (W0 m ρ c)

/-! ## After the first region: x · W1; everything else as before -/

theorem out0_h : W4 m ρ c (Proc.devRef .tc main_v30) = Cert.Spec.mm128 (F := Ideal) (aX m c) (aW1 m c) :=
  (W4_arr m ρ c 2).trans ((Region0.final (V3 m ρ) c).trans
    (congrArg₂ (Cert.Spec.mm128 (F := Ideal)) (in0_x m ρ c) (in0_w1 m ρ c)))
theorem out0_row : W4 m ρ c (Proc.devRef .tc main_v3) = eRow m c := (W4_of_ne m ρ c main_v3 (by decide)).trans (in0_row m ρ c)
theorem out0_col : W4 m ρ c (Proc.devRef .tc main_v6) = eCol m c := (W4_of_ne m ρ c main_v6 (by decide)).trans (in0_col m ρ c)
theorem out0_nrm : W4 m ρ c (Proc.devRef .tc main_v29) = eNrm m c := (W4_of_ne m ρ c main_v29 (by decide)).trans (in0_nrm m ρ c)
theorem out0_b1 : W4 m ρ c (Proc.devRef .tc main_arg3) = aB1 m c := (W4_of_ne m ρ c main_arg3 (by decide)).trans (in0_b1 m ρ c)
theorem out0_w2 : W4 m ρ c (Proc.devRef .tc main_arg4) = aW2 m c := (W4_of_ne m ρ c main_arg4 (by decide)).trans (in0_w2 m ρ c)
theorem out0_b2 : W4 m ρ c (Proc.devRef .tc main_arg5) = aB2 m c := (W4_of_ne m ρ c main_arg5 (by decide)).trans (in0_b2 m ρ c)

/-! ## When the second region is entered: the aggregated product and the first bias as a row -/

theorem in1_agg : W5 m ρ c (Proc.devRef .tc main_v43)
    = Cert.Spec.agg128 (F := Ideal) (Cert.Spec.mm128 (F := Ideal) (aX m c) (aW1 m c)) (eRow m c) (eCol m c) (eNrm m c) :=
  (Stretch.agg1 (W4 m ρ c)).trans (agg128_congr (out0_h m ρ c) (out0_row m ρ c) (out0_col m ρ c) (out0_nrm m ρ c))
theorem in1_bias : W5 m ρ c (Proc.devRef .tc main_v44) = Cert.Spec.row128 (F := Ideal) (aB1 m c) :=
  (Stretch.bias1 (W4 m ρ c)).trans (congrArg (Cert.Spec.row128 (F := Ideal)) (out0_b1 m ρ c))
theorem in1_row : W5 m ρ c (Proc.devRef .tc main_v3) = eRow m c := (Stretch.keep1_row (W4 m ρ c)).trans (out0_row m ρ c)
theorem in1_col : W5 m ρ c (Proc.devRef .tc main_v6) = eCol m c := (Stretch.keep1_col (W4 m ρ c)).trans (out0_col m ρ c)
theorem in1_nrm : W5 m ρ c (Proc.devRef .tc main_v29) = eNrm m c := (Stretch.keep1_nrm (W4 m ρ c)).trans (out0_nrm m ρ c)
theorem in1_w2 : W5 m ρ c (Proc.devRef .tc main_arg4) = aW2 m c := (Stretch.keep1_arg4 (W4 m ρ c)).trans (out0_w2 m ρ c)
theorem in1_b2 : W5 m ρ c (Proc.devRef .tc main_arg5) = aB2 m c := (Stretch.keep1_arg5 (W4 m ρ c)).trans (out0_b2 m ρ c)

/-! ## After the second region: the first layer -/

theorem out1_relu : W6 m ρ c (Proc.devRef .tc main_v45) = layer1 m c :=
  (W6_arr m ρ c 2).trans ((Region1.final (V5 m ρ) c).trans
    (congrArg₂ (Cert.Spec.biasRelu (F := Ideal)) (in1_agg m ρ c) (in1_bias m ρ c)))
theorem out1_row : W6 m ρ c (Proc.devRef .tc main_v3) = eRow m c := (W6_of_ne m ρ c main_v3 (by decide)).trans (in1_row m ρ c)
theorem out1_col : W6 m ρ c (Proc.devRef .tc main_v6) = eCol m c := (W6_of_ne m ρ c main_v6 (by decide)).trans (in1_col m ρ c)
theorem out1_nrm : W6 m ρ c (Proc.devRef .tc main_v29) = eNrm m c := (W6_of_ne m ρ c main_v29 (by decide)).trans (in1_nrm m ρ c)
theorem out1_w2 : W6 m ρ c (Proc.devRef .tc main_arg4) = aW2 m c := (W6_of_ne m ρ c main_arg4 (by decide)).trans (in1_w2 m ρ c)
theorem out1_b2 : W6 m ρ c (Proc.devRef .tc main_arg5) = aB2 m c := (W6_of_ne m ρ c main_arg5 (by decide)).trans (in1_b2 m ρ c)

/-! ## After the third region: layer one · W2 -/

theorem out2_h : W7 m ρ c (Proc.devRef .tc main_v46) = Cert.Spec.mm40 (F := Ideal) (layer1 m c) (aW2 m c) :=
  (W7_arr m ρ c 2).trans ((Region2.final (V6 m ρ) c).trans
    (congrArg₂ (Cert.Spec.mm40 (F := Ideal)) (out1_relu m ρ c) (out1_w2 m ρ c)))
theorem out2_row : W7 m ρ c (Proc.devRef .tc main_v3) = eRow m c := (W7_of_ne m ρ c main_v3 (by decide)).trans (out1_row m ρ c)
theorem out2_col : W7 m ρ c (Proc.devRef .tc main_v6) = eCol m c := (W7_of_ne m ρ c main_v6 (by decide)).trans (out1_col m ρ c)
theorem out2_nrm : W7 m ρ c (Proc.devRef .tc main_v29) = eNrm m c := (W7_of_ne m ρ c main_v29 (by decide)).trans (out1_nrm m ρ c)
theorem out2_b2 : W7 m ρ c (Proc.devRef .tc main_arg5) = aB2 m c := (W7_of_ne m ρ c main_arg5 (by decide)).trans (out1_b2 m ρ c)

/-! ## When the last region is entered, and after it -/

theorem in3_agg : W8 m ρ c (Proc.devRef .tc main_v59)
    = Cert.Spec.agg40 (F := Ideal) (Cert.Spec.mm40 (F := Ideal) (layer1 m c) (aW2 m c)) (eRow m c) (eCol m c) (eNrm m c) :=
  (Stretch.agg3 (W7 m ρ c)).trans (agg40_congr (out2_h m ρ c) (out2_row m ρ c) (out2_col m ρ c) (out2_nrm m ρ c))
theorem in3_bias : W8 m ρ c (Proc.devRef .tc main_v60) = Cert.Spec.row40 (F := Ideal) (aB2 m c) :=
  (Stretch.bias3 (W7 m ρ c)).trans (congrArg (Cert.Spec.row40 (F := Ideal)) (out2_b2 m ρ c))

end Cert.KernelIdeal.Walk

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.Region3.lean ====
/-
  The bias + log-softmax region: its output array after the region is the reference's bias and log-softmax of the
  region's two input arrays.

  One row of 40 extended reals z has a largest entry top(z), the fold of max over its entries started from the value
  of the word for minus infinity, and a log-softmax  (z q − top z) − log (Σ_k exp (z k − top z)).

  The kernel body, on a block of 5000 rows and the one bias row, computes at (p, q) the log-softmax at q of row p of
  the block plus the bias row: the two row reductions are read as the fold of max and the sum over the row's 40
  entries, the column casts and broadcasts repeat a row's value along the row.  The reference's stage, on the whole
  array of 100000 rows, computes at (r, q) the same formula of row r: its running maximum over axis 1 is the same
  fold (the further maximum with the starting value changes nothing, a fold of max being at least its starting
  value), and its sum starts from the zero word, whose value is 0.  Grid point t's block is rows 5000·t … 5000·t + 4999
  of the input and of the output, the bias row is taken whole at every point, and the 20 blocks cover the output
  array; so the array ends holding that formula at every index.
-/
import proofs.«128675_j73332271612558_1_alg».proof.Proof.Gen.KernelIdeal.Frame
import proofs.«128675_j73332271612558_1_alg».proof.Proof.Spec
import proofs.«128675_j73332271612558_1_alg».proof.Proof.LibColumn
import proofs.«128675_j73332271612558_1_alg».proof.Proof.LibColumnCast
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem
open Idealize.ShloMosaic.ValueIdx

/-! ## One row's log-softmax

A row of 40 extended reals z; its largest entry is the fold of max over the 40 entries started from the value of the
word for minus infinity; the row's log-softmax at entry q is (z q − top) − log (Σ_k exp (z k − top)). -/

/-- The largest entry of a row: the fold of max over its 40 entries, from the value of the word 0xFF800000. -/
def rowTop (z : Fin 40 → EReal) : EReal :=
  (Finset.univ : Finset (Fin 40)).fold max (Ideal.ofBits .f32 0xFF800000#32) z

/-- The log-softmax of a row at entry q. -/
def rowLogSoftmax (z : Fin 40 → EReal) (q : Fin 40) : EReal :=
  (z q - rowTop z) - Ideal.log (∑ k : Fin 40, Ideal.exp (z k - rowTop z))

/-! ## The kernel body at an index -/

/-- The block plus the bias row, at (p, k): the two casts of a shape to itself are the identity, the one-row
    broadcast reads the row at k. -/
theorem biased_apply (x0 : FVec Ideal S5000x40 .f32) (x1 : FVec Ideal S1x40 .f32)
    (h0 : S5000x40.ShapeCasts S5000x40) (h1 : S1x40.ShapeCasts S1x40) (hb : S1x40.Broadcasts S5000x40)
    (p : Fin 5000) (k : Fin 40) :
    addf (shapeCast S5000x40 x0 h0) (broadcastTo S5000x40 (shapeCast S1x40 x1 h1) hb) (ix2 p k)
      = x0 (ix2 p k) + x1 (ix2 (0 : Fin 1) k) := by
  rw [shapeCast_self, shapeCast_self, addf_apply, broadcastTo_1b_ab_apply]

/-- The maximum over axis 1 at row p is the fold of max over that row's 40 entries: the index inserted on the
    removed axis is (p, k). -/
theorem rowTop_apply (v : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = rowTop (fun k => v (ix2 p k)) := by
  refine (Ideal.multiReduction_maximumf_single v _ h hφ hacc (ix1 p)).trans ?_
  unfold rowTop
  refine Finset.fold_congr fun k _ => ?_
  exact congrArg v (funext fun a => Fin.ext (by match a with | ⟨0, _⟩ => rfl | ⟨1, _⟩ => rfl))

/-- The sum over axis 1 at row p is the sum of that row's 40 entries. -/
theorem rowSum_apply (v : FVec Ideal S5000x40 .f32) (h : S5000x40.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 40, v (ix2 p k) := by
  refine (Ideal.multiReduction_add_single v _ h hφ hacc (ix1 p)).trans ?_
  refine Finset.sum_congr rfl fun k _ => ?_
  exact congrArg v (funext fun a => Fin.ext (by match a with | ⟨0, _⟩ => rfl | ⟨1, _⟩ => rfl))

/-- One value per row, cast to a column and repeated along the row, reads the row's value everywhere on the row. -/
theorem alongRow_apply (w : FVec Ideal S5000 .f32) (hc : S5000.ShapeCasts S5000x1) (hb : S5000x1.Broadcasts S5000x40)
    (p : Fin 5000) (q : Fin 40) :
    broadcastTo S5000x40 (shapeCast S5000x1 w hc) hb (ix2 p q) = w (ix1 p) := by
  rw [ColumnBroadcast.broadcastTo_a1_ab_apply, ColumnCast.shapeCast_col_apply]

/-- The same with the logarithm taken on the column. -/
theorem logAlongRow_apply (w : FVec Ideal S5000 .f32) (hc : S5000.ShapeCasts S5000x1) (hb : S5000x1.Broadcasts S5000x40)
    (p : Fin 5000) (q : Fin 40) :
    broadcastTo S5000x40 (log (shapeCast S5000x1 w hc)) hb (ix2 p q) = Ideal.log (w (ix1 p)) := by
  rw [ColumnBroadcast.broadcastTo_a1_ab_apply]
  show Ideal.log (shapeCast S5000x1 w hc (ix2 p (0 : Fin 1))) = _
  rw [ColumnCast.shapeCast_col_apply]

/-- From the biased block z on: subtract each row's largest entry, exponentiate, sum each row, take the logarithm,
    subtract it. At (p, q) this is the log-softmax of row p of z at q. -/
theorem tail_apply (z : FVec Ideal S5000x40 .f32) (h : S5000x40.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x40) (p : Fin 5000) (q : Fin 40) :
    subf (subf z (broadcastTo S5000x40 (shapeCast S5000x1 (multiReduction .maximumf [1] S5000 z 0xFF800000#32 h hφ hmax) hc) hb))
      (broadcastTo S5000x40 (log (shapeCast S5000x1
        (multiReduction .add [1] S5000
          (exp (subf z (broadcastTo S5000x40 (shapeCast S5000x1 (multiReduction .maximumf [1] S5000 z 0xFF800000#32 h hφ hmax) hc) hb)))
          0x00000000#32 h hφ hadd) hc)) hb) (ix2 p q)
      = rowLogSoftmax (fun k => z (ix2 p k)) q := by
  have hs : ∀ k : Fin 40,
      subf z (broadcastTo S5000x40 (shapeCast S5000x1 (multiReduction .maximumf [1] S5000 z 0xFF800000#32 h hφ hmax) hc) hb) (ix2 p k)
        = z (ix2 p k) - rowTop (fun k => z (ix2 p k)) := fun k => by
    rw [subf_apply, alongRow_apply, rowTop_apply]
  generalize subf z (broadcastTo S5000x40 (shapeCast S5000x1 (multiReduction .maximumf [1] S5000 z 0xFF800000#32 h hφ hmax) hc) hb) = s at hs ⊢
  rw [subf_apply, logAlongRow_apply, rowSum_apply, hs]
  unfold rowLogSoftmax
  refine congrArg (fun S => z (ix2 p q) - rowTop (fun k => z (ix2 p k)) - Ideal.log S) (Finset.sum_congr rfl fun k _ => ?_)
  show Ideal.exp (s (ix2 p k)) = _
  rw [hs]

/-- The kernel body at (p, q): the log-softmax of row p of the block plus the bias row. -/
theorem pay_apply (x0 : Vec Ideal S5000x40 .f32) (x1 : Vec Ideal S1x40 .f32) (p : Fin 5000) (q : Fin 40) :
    k3_pay1 (F := Ideal) x0 x1 (ix2 p q) = rowLogSoftmax (fun k => x0 (ix2 p k) + x1 (ix2 (0 : Fin 1) k)) q := by
  unfold k3_pay1
  refine (tail_apply _ _ _ _ _ _ _ p q).trans ?_
  refine congrArg (fun z => rowLogSoftmax z q) (funext fun k => ?_)
  exact biased_apply x0 x1 _ _ _ p k

/-! ## The reference's stages at an index -/

/-- The array plus the bias row broadcast down the rows, at (r, k). -/
theorem ref_biased_apply (a : FVec Ideal ⟨2, ![100000, 40]⟩ .f32) (brow : FVec Ideal ⟨2, ![1, 40]⟩ .f32)
    (hb : (⟨2, ![1, 40]⟩ : Shape).BroadcastsInDim ⟨2, ![100000, 40]⟩ (![0, 1] : Fin 2 → Fin 2))
    (r : Fin 100000) (k : Fin 40) :
    addf a (broadcastInDim ⟨2, ![100000, 40]⟩ ![0, 1] hb brow) (ix2 r k) = a (ix2 r k) + brow (ix2 (0 : Fin 1) k) := by
  rw [addf_apply]
  refine congrArg (a (ix2 r k) + ·) (broadcastInDim_apply _ hb brow (ix2 r k) (ix2 (0 : Fin 1) k) fun ax => ?_)
  match ax with
  | ⟨0, _⟩ => show (0 : Nat) = if (1 : Nat) = 1 then 0 else r.val; rw [if_pos rfl]
  | ⟨1, _⟩ => show k.val = if (40 : Nat) = 1 then 0 else k.val; rw [if_neg (by decide)]

/-- One value per row, made a column and repeated along the row, reads the row's value everywhere on the row. -/
theorem ref_alongRow_apply (v : (⟨1, ![100000]⟩ : Shape).Idx → EReal)
    (h1 : (⟨1, ![100000]⟩ : Shape).BroadcastsInDim ⟨2, ![100000, 1]⟩ (![0] : Fin 1 → Fin 2))
    (h2 : (⟨2, ![100000, 1]⟩ : Shape).BroadcastsInDim ⟨2, ![100000, 40]⟩ (![0, 1] : Fin 2 → Fin 2))
    (r : Fin 100000) (q : Fin 40) :
    broadcastInDim ⟨2, ![100000, 40]⟩ ![0, 1] h2 (broadcastInDim ⟨2, ![100000, 1]⟩ ![0] h1 v) (ix2 r q) = v (ix1 r) := by
  refine (broadcastInDim_apply _ h2 _ (ix2 r q) (ix2 r (0 : Fin 1)) fun a => ?_).trans ?_
  · match a with
    | ⟨0, _⟩ => show r.val = if (100000 : Nat) = 1 then 0 else r.val; rw [if_neg (by decide)]
    | ⟨1, _⟩ => show (0 : Nat) = if (1 : Nat) = 1 then 0 else q.val; rw [if_pos rfl]
  · refine broadcastInDim_apply _ h1 v (ix2 r (0 : Fin 1)) (ix1 r) fun a => ?_
    match a with
    | ⟨0, _⟩ => show r.val = if (100000 : Nat) = 1 then 0 else r.val; rw [if_neg (by decide)]

/-- The same with the host's logarithm taken on the column. -/
theorem ref_logAlongRow_apply (w : FVec Ideal ⟨1, ![100000]⟩ .f32)
    (h1 : (⟨1, ![100000]⟩ : Shape).BroadcastsInDim ⟨2, ![100000, 1]⟩ (![0] : Fin 1 → Fin 2))
    (h2 : (⟨2, ![100000, 1]⟩ : Shape).BroadcastsInDim ⟨2, ![100000, 40]⟩ (![0, 1] : Fin 2 → Fin 2))
    (r : Fin 100000) (q : Fin 40) :
    broadcastInDim ⟨2, ![100000, 40]⟩ ![0, 1] h2 (Host.log (broadcastInDim ⟨2, ![100000, 1]⟩ ![0] h1 w)) (ix2 r q)
      = Ideal.log (w (ix1 r)) := by
  refine (broadcastInDim_apply _ h2 _ (ix2 r q) (ix2 r (0 : Fin 1)) fun a => ?_).trans ?_
  · match a with
    | ⟨0, _⟩ => show r.val = if (100000 : Nat) = 1 then 0 else r.val; rw [if_neg (by decide)]
    | ⟨1, _⟩ => show (0 : Nat) = if (1 : Nat) = 1 then 0 else q.val; rw [if_pos rfl]
  · show Ideal.log (broadcastInDim ⟨2, ![100000, 1]⟩ ![0] h1 w (ix2 r (0 : Fin 1))) = _
    refine congrArg Ideal.log (broadcastInDim_apply _ h1 w (ix2 r (0 : Fin 1)) (ix1 r) fun a => ?_)
    match a with
    | ⟨0, _⟩ => show r.val = if (100000 : Nat) = 1 then 0 else r.val; rw [if_neg (by decide)]

/-- The maximum of a starting value with a fold of max from that value is the fold: the fold is at least its
    starting value. -/
theorem max_fold_self (c : EReal) (f : Fin 40 → EReal) :
    max c ((Finset.univ : Finset (Fin 40)).fold max c f) = (Finset.univ : Finset (Fin 40)).fold max c f :=
  max_eq_right ((Finset.le_fold_max c).2 (Or.inl le_rfl))

/-- The host's running maximum over axis 1 from the word for minus infinity, then its maximum with that word's
    splat: at row r the fold of max over the row's 40 entries from that word's value (the fold is at least its
    starting value, so the outer maximum changes nothing). -/
theorem ref_rowMax_apply (z : FVec Ideal ⟨2, ![100000, 40]⟩ .f32)
    (hb0 : (⟨0, ![]⟩ : Shape).BroadcastsInDim ⟨1, ![100000]⟩ (![] : Fin 0 → Fin 1))
    (h' : (⟨2, ![100000, 40]⟩ : Shape).ReducesTo [1] ⟨1, ![100000]⟩) (hu : 0 < (⟨0, ![]⟩ : Shape).numel) (r : Fin 100000) :
    maximumf (broadcastInDim ⟨1, ![100000]⟩ ![] hb0 (constant (F := Ideal) ⟨0, ![]⟩ .f32 0xFF800000#32))
        (Host.reduce FloatOps.maximumf z (constant (F := Ideal) ⟨0, ![]⟩ .f32 0xFF800000#32) h' hu) (ix1 r)
      = rowTop (fun k => z (ix2 r k)) := by
  have hfold : Host.reduce FloatOps.maximumf z (constant (F := Ideal) ⟨0, ![]⟩ .f32 0xFF800000#32) h' hu (ix1 r)
      = rowTop (fun k => z (ix2 r k)) := by
    refine (Host.reduce_eq_fold_single FloatOps.maximumf z _ h' (by decide) hu (ix1 r)).trans ?_
    unfold rowTop
    refine Finset.fold_congr fun k _ => ?_
    exact congrArg z (funext fun a => Fin.ext (by match a with | ⟨0, _⟩ => rfl | ⟨1, _⟩ => rfl))
  rw [maximumf_apply, hfold, broadcastInDim_apply _ hb0 _ (ix1 r) ix0 (fun a => a.elim0), constant_apply]
  unfold rowTop
  exact max_fold_self _ _

/-- The host's sum over axis 1 of the exponentials from the zero word: at row r the sum over the row's 40 entries
    (the zero word's value is 0). -/
theorem ref_rowSum_apply (s : FVec Ideal ⟨2, ![100000, 40]⟩ .f32)
    (h' : (⟨2, ![100000, 40]⟩ : Shape).ReducesTo [1] ⟨1, ![100000]⟩) (hu : 0 < (⟨0, ![]⟩ : Shape).numel) (r : Fin 100000) :
    Host.reduceAdd (Host.exp s) (constant (F := Ideal) ⟨0, ![]⟩ .f32 0x00000000#32) h' hu (ix1 r)
      = ∑ k : Fin 40, Ideal.exp (s (ix2 r k)) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => ?_
  exact congrArg (fun i => Ideal.exp (s i)) (funext fun a => Fin.ext (by match a with | ⟨0, _⟩ => rfl | ⟨1, _⟩ => rfl))

/-- The reference from the biased array z on, at (r, q): the log-softmax of row r of z at q. -/
theorem ref_tail_apply (z : FVec Ideal ⟨2, ![100000, 40]⟩ .f32) (r : Fin 100000) (q : Fin 40) :
    (subf (Cert.Spec.shifted (F := Ideal) z) (Cert.Spec.logSumExp (F := Ideal) (Cert.Spec.shifted (F := Ideal) z))
        : FVec Ideal ⟨2, ![100000, 40]⟩ .f32) (ix2 r q)
      = rowLogSoftmax (fun k => z (ix2 r k)) q := by
  have hs : ∀ k : Fin 40, Cert.Spec.shifted (F := Ideal) z (ix2 r k) = z (ix2 r k) - rowTop (fun k => z (ix2 r k)) := fun k =>
    congrArg (z (ix2 r k) - ·) ((ref_alongRow_apply _ _ _ r k).trans (ref_rowMax_apply z _ _ _ r))
  generalize Cert.Spec.shifted (F := Ideal) z = s at hs ⊢
  have hl : Cert.Spec.logSumExp (F := Ideal) s (ix2 r q) = Ideal.log (∑ k : Fin 40, Ideal.exp (s (ix2 r k))) :=
    (ref_logAlongRow_apply _ _ _ r q).trans (congrArg Ideal.log (ref_rowSum_apply s _ _ r))
  rw [subf_apply, hl, hs]
  unfold rowLogSoftmax
  refine congrArg (fun S => z (ix2 r q) - rowTop (fun k => z (ix2 r k)) - Ideal.log S) (Finset.sum_congr rfl fun k _ => ?_)
  rw [hs]

/-- The reference's bias and log-softmax at (r, q): the log-softmax of row r of the array plus the bias row. -/
theorem ref_apply (a : FVec Ideal ⟨2, ![100000, 40]⟩ .f32) (brow : FVec Ideal ⟨2, ![1, 40]⟩ .f32) (r : Fin 100000) (q : Fin 40) :
    Cert.Spec.biasLogSoftmax (F := Ideal) a brow (ix2 r q)
      = rowLogSoftmax (fun k => a (ix2 r k) + brow (ix2 (0 : Fin 1) k)) q := by
  unfold Cert.Spec.biasLogSoftmax
  refine (ref_tail_apply _ r q).trans ?_
  refine congrArg (fun z => rowLogSoftmax z q) (funext fun k => ?_)
  exact ref_biased_apply a brow _ r k

/-! ## From blocks to the array -/

/-- What the region leaves in its output array: at (r, q) the log-softmax, at q, of row r of the input array plus
    the bias row. -/
def G (A : S100000x40.Idx → Elt Ideal .f32) (B : S1x40.Idx → Elt Ideal .f32) : S100000x40.Idx → Elt Ideal .f32 :=
  fun i => rowLogSoftmax (fun k => A (ix2 (n0 := 100000) (i 0) k) + B (ix2 (0 : Fin 1) k)) (i 1)

/-- The reference's stage is that function. -/
theorem spec_eq_G (A : S100000x40.Idx → Elt Ideal .f32) (B : S1x40.Idx → Elt Ideal .f32) :
    Cert.Spec.biasLogSoftmax (F := Ideal) A B = G A B := by
  funext i
  obtain ⟨r, q, rfl⟩ : ∃ (r : Fin 100000) (q : Fin 40), i = ix2 r q := ⟨i 0, i 1, eq_ix2 i⟩
  exact ref_apply A B r q

/-- The kernel body of two blocks that are rows b·5000 … b·5000 + 4999 of an array A and the whole row B: at a
    block index y it is G at the array index i with i = (b·5000 + y₀, y₁). -/
theorem pay_eq_G (x0 : Vec Ideal S5000x40 .f32) (x1 : Vec Ideal S1x40 .f32)
    (A : S100000x40.Idx → Elt Ideal .f32) (B : S1x40.Idx → Elt Ideal .f32) (b : Nat)
    (hx0 : ∀ (y : S5000x40.Idx) (i : S100000x40.Idx), (i 0).val = b * 5000 + (y 0).val → (i 1).val = (y 1).val → x0 y = A i)
    (hx1 : ∀ y : S1x40.Idx, x1 y = B y) (y : S5000x40.Idx) (i : S100000x40.Idx)
    (h0 : (i 0).val = b * 5000 + (y 0).val) (h1 : (i 1).val = (y 1).val) :
    k3_pay1 (F := Ideal) x0 x1 y = G A B i := by
  obtain ⟨p, q, rfl⟩ : ∃ (p : Fin 5000) (q : Fin 40), y = ix2 p q := ⟨y 0, y 1, eq_ix2 y⟩
  obtain ⟨r, q', rfl⟩ : ∃ (r : Fin 100000) (q' : Fin 40), i = ix2 r q' := ⟨i 0, i 1, eq_ix2 i⟩
  have hq : q' = q := Fin.ext h1
  rw [hq, pay_apply]
  show _ = rowLogSoftmax (fun k => A (ix2 r k) + B (ix2 (0 : Fin 1) k)) q
  refine congrArg (fun z => rowLogSoftmax z q) (funext fun k => ?_)
  rw [hx0 (ix2 p k) (ix2 r k) h0 rfl, hx1]

variable (V : (c : Dev nD) → (b : Ref sig .tc) → Buf (Elt Ideal) ((c : Thread nD τ).loc b))

theorem origin_zero : (![0, 0] : Fin 2 → Nat) = fun _ => 0 := funext fun a => by fin_cases a <;> rfl

/-- The block indices at grid point t: the input's and the output's blocks are block t along the rows, the bias
    row's block is the whole row. -/
theorem blockIndex : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the 20 row blocks is some grid point's output block. -/
theorem blockOnto : ∀ b : Fin 20, ∃ t : Fin cfg3.N, win3_2.index t = ![b.val, 0] :=
  (by decide +kernel : ∀ b : Fin 20, ∃ t : Fin grid3.N, win3_2.index t = ![b.val, 0])

/-- The input window's block at point t is rows 5000·t … 5000·t + 4999 of the input array. -/
theorem iblk0_apply (c : Dev nD) (t : Fin cfg3.N) (y : S5000x40.Idx) (i : S100000x40.Idx)
    (h0 : (i 0).val = t.val * 5000 + (y 0).val) (h1 : (i 1).val = (y 1).val) :
    (iblk3 V c 0 t : Vec Ideal S5000x40 .f32) y = (V c main_v59 : S100000x40.Idx → Elt Ideal .f32) i := by
  obtain ⟨e0, e1, -, -, -, -⟩ := blockIndex t
  unfold iblk3
  rw [View.read_apply]
  show V c main_v59 _ = V c main_v59 _
  congr 1
  funext a
  apply Fin.ext
  match a with
  | ⟨0, _⟩ => show win3_0.index t 0 * 5000 + 1 * (y 0).val = (i 0).val; rw [e0, h0]; omega
  | ⟨1, _⟩ => show win3_0.index t 1 * 40 + 1 * (y 1).val = (i 1).val; rw [e1, h1]; omega

/-- The bias window's block at every point is the whole bias row. -/
theorem iblk1_apply (c : Dev nD) (t : Fin cfg3.N) (y : S1x40.Idx) :
    (iblk3 V c 1 t : Vec Ideal S1x40 .f32) y = (V c main_v60 : S1x40.Idx → Elt Ideal .f32) y := by
  obtain ⟨-, -, e2, e3, -, -⟩ := blockIndex t
  unfold iblk3
  rw [View.read_apply]
  show V c main_v60 _ = V c main_v60 _
  congr 1
  funext a
  apply Fin.ext
  match a with
  | ⟨0, _⟩ => show win3_1.index t 0 * 1 + 1 * (y 0).val = (y 0).val; rw [e2]; omega
  | ⟨1, _⟩ => show win3_1.index t 1 * 40 + 1 * (y 1).val = (y 1).val; rw [e3]; omega

/-- What grid point t writes back is block t of G of the two arrays as the region finds them. -/
theorem flushed_eq (c : Dev nD) (t : Fin cfg3.N) :
    (dat3 (F := Ideal) V c).flushed 2 t
      = ((cfg3.win 2).blk t).view.read (Elt Ideal) (G (V c main_v59) (V c main_v60)) := by
  show (cfg3.win 2).cut (grid3.coords t) ((dat3 (F := Ideal) V c).after 2 t) = _
  rw [after3_2]
  unfold out3_2
  rw [View.canon_unit_zero origin_zero]
  simp only [View.ld_unit_zero (S := S5000x40) origin_zero, View.ld_unit_zero (S := S1x40) origin_zero]
  obtain ⟨-, -, -, -, e4, e5⟩ := blockIndex t
  funext j
  show k3_pay1 (F := Ideal) (iblk3 V c 0 t) (iblk3 V c 1 t) j
    = G (V c main_v59) (V c main_v60) (((cfg3.win 2).blk t).view.emb j)
  refine pay_eq_G _ _ _ _ t.val (fun y i h0 h1 => iblk0_apply V c t y i h0 h1) (fun y => iblk1_apply V c t y) j _ ?_ ?_
  · show win3_2.index t (0 : Fin 2) * 5000 + 1 * (j 0).val = t.val * 5000 + (j 0).val
    rw [e4]; omega
  · show win3_2.index t (1 : Fin 2) * 40 + 1 * (j 1).val = (j 1).val
    rw [e5]; omega

/-- An index of the array is in point t's output block iff each coordinate is in the block's range on its axis. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v61).slice (win3_2.rect t)).set ↔ _
  rw [View.set_slice_whole, Rect.mem_set_unit]
  exact Iff.rfl

/-- Every index of the output array lies in the block of the point numbered (row / 5000). -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := blockOnto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- The output array after the region: the reference's bias and log-softmax of the two input arrays as the region
    finds them. -/
theorem final (c : Dev nD) :
    (dat3 (F := Ideal) V c).arrAt 2 cfg3.N = Cert.Spec.biasLogSoftmax (F := Ideal) (V c main_v59) (V c main_v60) :=
  ((dat3 (F := Ideal) V c).arrAt_eq_of_cover 2 (G (V c main_v59) (V c main_v60)) (fun t _ => flushed_eq V c t) cover).trans
    (spec_eq_G _ _).symm

end Cert.KernelIdeal.Region3

end
-- ==== Proof.KernelValue.lean ====
/-
  The kernel's result.

  The last region takes the aggregated second product and the second bias, laid out as a row, and leaves
  logSoftmax(a + b) along each row.  With the walk up to its entry, the result array after the run is the
  specification's function of the six arguments as launched.
-/
import proofs.«128675_j73332271612558_1_alg».proof.Proof.Walk
import proofs.«128675_j73332271612558_1_alg».proof.Proof.Region3

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result array after the run is the specification's function of the six arguments as launched. -/
theorem result : W9 m ρ c (Proc.devRef .tc main_v61)
    = Cert.Spec.whole (F := Ideal) (aX m c) (aE m c) (aW1 m c) (aB1 m c) (aW2 m c) (aB2 m c) :=
  (W9_arr m ρ c 2).trans ((Region3.final (V8 m ρ) c).trans
    (congrArg₂ (Cert.Spec.biasLogSoftmax (F := Ideal)) (in3_agg m ρ c) (in3_bias m ρ c)))

end Cert.KernelIdeal.Walk

end
-- ==== Proof.lean ====
/-
  A two-layer graph convolution, kernel against reference, over the extended reals.

  Both programs take node features x (100000 × 128), an edge array (2 × 1600000) and the weights and biases of two
  layers, and return logSoftmax(agg(max(agg(x · W1) + b1, 0) · W2) + b2), where agg sums, into each node's row, the rows
  of its neighbours (and its own) scaled by the symmetric normalisation deg^(-1/2) · deg^(-1/2).  The reference is a
  straight line of host operations.  The kernel computes the edge endpoints, the weights and both aggregations with the
  same host operations, and runs the four dense stages as kernel regions over blocks of 5000 rows: a 128 × 128 product,
  a bias and a rectifier, a 128 × 40 product, a bias and a log-softmax along each row of 40 entries.

  How the claim is met.  `Cert.Spec.whole` states the result as one function of the six arguments, grouped as the
  reference groups it.  On the kernel's side each region's output array is that group's function of the region's two
  input arrays — the blocks tile the rows, and on a block the body's product is the contraction's sum, its lane
  maximum and lane sum are the host's row maximum and row sum —, each host stretch is the group it spells, and the
  generated frame names the buffers at every boundary; walking the boundaries gives the result.  On the reference's side
  the 98 operations are read segment by segment.  The arguments agree, so the two results are equal entry by entry.
  Nothing is ever rearranged over the extended reals: the two sides apply the same operations in the same order, so no
  finiteness of the inputs is needed and the precondition is not opened.
-/
import proofs.«128675_j73332271612558_1_alg».proof.Defs
import proofs.«128675_j73332271612558_1_alg».proof.Proof.Gen.Kernel
import proofs.«128675_j73332271612558_1_alg».proof.Proof.Gen.Kernel.Skeleton
import proofs.«128675_j73332271612558_1_alg».proof.Proof.Gen.Kernel.Launch
import proofs.«128675_j73332271612558_1_alg».proof.Proof.Gen.Kernel.Points
import proofs.«128675_j73332271612558_1_alg».proof.Proof.Gen.Kernel.Frame
import proofs.«128675_j73332271612558_1_alg».proof.Proof.Gen.KernelIdeal
import proofs.«128675_j73332271612558_1_alg».proof.Proof.Gen.KernelIdeal.Skeleton
import proofs.«128675_j73332271612558_1_alg».proof.Proof.Gen.KernelIdeal.Launch
import proofs.«128675_j73332271612558_1_alg».proof.Proof.Gen.KernelIdeal.Points
import proofs.«128675_j73332271612558_1_alg».proof.Proof.Gen.KernelIdeal.Frame
import proofs.«128675_j73332271612558_1_alg».proof.Proof.Gen.ReferenceIdeal
import proofs.«128675_j73332271612558_1_alg».proof.Proof.Gen.Pre_finite_inputs
import proofs.«128675_j73332271612558_1_alg».proof.Proof.RefRun
import proofs.«128675_j73332271612558_1_alg».proof.Proof.RefValue
import proofs.«128675_j73332271612558_1_alg».proof.Proof.KernelValueRun
import proofs.«128675_j73332271612558_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame of its four regions. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read over the extended reals. -/
theorem preserves : Cert.preserves_Kernel_KernelIdeal := trivial

/-- The specification at equal arguments. -/
theorem whole_congr {x x' : (⟨Cert.ReferenceIdeal.S100000x128, .f32⟩ : BufTy).Contents (Elt Ideal)} {e e' : (⟨Cert.ReferenceIdeal.S2x1600000, .i32⟩ : BufTy).Contents (Elt Ideal)}
    {w1 w1' : (⟨Cert.ReferenceIdeal.S128x128, .f32⟩ : BufTy).Contents (Elt Ideal)} {b1 b1' : (⟨Cert.ReferenceIdeal.S128, .f32⟩ : BufTy).Contents (Elt Ideal)}
    {w2 w2' : (⟨Cert.ReferenceIdeal.S128x40, .f32⟩ : BufTy).Contents (Elt Ideal)} {b2 b2' : (⟨Cert.ReferenceIdeal.S40, .f32⟩ : BufTy).Contents (Elt Ideal)}
    (h0 : x = x') (h1 : e = e') (h2 : w1 = w1') (h3 : b1 = b1') (h4 : w2 = w2') (h5 : b2 = b2') :
    Cert.Spec.whole (F := Ideal) x e w1 b1 w2 b2 = Cert.Spec.whole (F := Ideal) x' e' w1' b1' w2' b2' := by
  rw [h0, h1, h2, h3, h4, h5]

/-- Both programs end with the two-layer graph convolution of their arguments, `Cert.Spec.whole`: the kernel by the
    walk through its regions and host stretches, the reference by reading its operations segment by segment; the
    arguments agree, so the results do.  No finiteness is used: the two sides apply the same operations in the same
    order, and where they spell one differently (a matrix unit's product into zero against a host contraction, a lane
    reduction against a host reduction) the two spellings are the same sum or the same maximum of the same terms. -/
theorem algebraic : Cert.algebraic_KernelIdeal_ReferenceIdeal := by
  intro m ρ m' ρ' _ hagree
  refine ⟨fun c => Cert.Spec.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.whole_eq (StableHlo.launchContents m' c)).trans ?_
    obtain ⟨e0, e1, e2, e3, e4, e5⟩ := hagree c
    exact whole_congr e0 e1 e2 e3 e4 e5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
